-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512 : Shape := ⟨2, ![1, 512]⟩
abbrev S1 : Shape := ⟨1, ![1]⟩
abbrev S1x1 : Shape := ⟨2, ![1, 1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x128, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg0 : BitVec 32 := BitVec.ofNat 32 (i 0).val
  let arg1 : BitVec 32 := BitVec.ofNat 32 (i 1).val
  let v5 : BitVec 1 := Scalar.cmpi .sle arg0 arg1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x128_S1x128_0_0 : ∀ a, (![0, 0] : Fin 2 → Nat) a + S1x128.size a ≤ S1x128.size a
  h_S1x128 : 0 < S1x128.numel
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  bitsLt_bf16_f32 : FTy.bits .bf16 < FTy.bits .f32
  transposes_S512x1024_p1_0_S1024x512 : S512x1024.Transposes [1, 0] S1024x512
  transposes_S512x1_p1_0_S1x512 : S512x1.Transposes [1, 0] S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  natLt_1_32 : 1 < 32
  reduces_S512x512_S512 : S512x512.Reduces [1] S512
  reduces_S512x1_S1 : S512x1.Reduces [0] S1
  shapeCasts_S1_S1x1 : S1.ShapeCasts S1x1
  shapeCasts_S1x128_S1x128 : S1x128.ShapeCasts S1x128
  shapeCasts_S1x1_S1x1 : S1x1.ShapeCasts S1x1
  broadcasts_S1x1_S1x128 : S1x1.Broadcasts S1x128
  slices_S1x128_S1x1_0_0 : S1x128.Slices ![0, 0] S1x1
  shapeCasts_S1x1_S_ : S1x1.ShapeCasts S_
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S4096, .f32⟩
  | .hbm, ⟨4, _⟩ => ⟨S4096, .f32⟩
  | .hbm, ⟨5, _⟩ => ⟨S1024x4096, .f32⟩
  | .hbm, ⟨6, _⟩ => ⟨S4096x4096, .f32⟩
  | .hbm, ⟨7, _⟩ => ⟨S4096x1, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_cst : Ref sig .tc := ⟨.hbm, 24, rfl⟩
abbrev main_call1_v5 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  transposes_S4096x1024_S1024x4096_1_0 : S4096x1024.Transposes [1, 0] S1024x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KBody.lean ====
/-
  The kernel body at one grid point, run symbolically.

  At grid point (i, j) of the 8 × 8 tile grid the body does one of three things to the 1 × 128 running-total block
  it is handed (the output window's staging buffer), reading the two 512 × 1024 row blocks of the input it is handed:
    * at the first point (i = j = 0): it stores zeros, then stores the tile's contribution added to what it reads
      back (the zeros);
    * at any other point on or above the diagonal (i ≤ j): it stores the tile's contribution added to what the
      block held;
    * below the diagonal (j < i): nothing — the block is left as found.
  Each run is stated on whole staging buffers at given contents and says what the total's buffer holds afterwards:
  the canonical reading of the stores made, over the body's one arithmetic term (the payload of the skeleton).
-/
import proofs.«113013_j7284264534292_1_alg».proof.Proof.Gen.Kernel
import proofs.«113013_j7284264534292_1_alg».proof.Proof.Gen.Kernel.Skeleton
import proofs.«113013_j7284264534292_1_alg».proof.Proof.Gen.Kernel.Launch
import proofs.«113013_j7284264534292_1_alg».proof.Proof.Gen.Kernel.Points
import Idealize.ShloMosaic.Lib.Writes
import Idealize.ShloMosaic.Lib.Pipeline.FrameBody
import Idealize.ShloMosaic.Lib.Tactic

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rectangle of every access to the running total: the whole 1 × 128 block. -/
abbrev rO : Rect S1x128 := Rect.unit (s := S1x128) ![0, 0] S1x128.size inb_S1x128_S1x128_0_0
/-- The rectangle of every access to a row block: the whole 512 × 1024 block. -/
abbrev rI : Rect S512x1024 := Rect.unit (s := S512x1024) ![0, 0] S512x1024.size inb_S512x1024_S512x1024_0_0

/-- The two grid coordinates as the body's 32-bit words. -/
abbrev wI (i : grid0.Coords) : BitVec 32 := BitVec.ofNat 32 (i 0).val
abbrev wJ (i : grid0.Coords) : BitVec 32 := BitVec.ofNat 32 (i 1).val

/-- The total after an accumulating point: the tile's contribution added to the block's contents `a`. -/
abbrev stepv (i : grid0.Coords) (x0 x1 : Vec F S512x1024 .f32) (a : Vec F S1x128 .f32) : Vec F S1x128 .f32 :=
  View.canon [⟨rO, k0_pay2 (wI i) (wJ i) (View.ld x0 rI) (View.ld x1 rI) (View.ld a rO)⟩]
/-- The total after the first point: zeros stored, read back, and the first tile's contribution added. -/
abbrev firstv (i : grid0.Coords) (M2 : Memref sig .tc .vmem S1x128 .f32) (x0 x1 : Vec F S512x1024 .f32) : Vec F S1x128 .f32 :=
  View.canon [⟨rO, k0_pay2 (wI i) (wJ i) (View.ld x0 rI) (View.ld x1 rI) (M2.view.readCov [⟨rO, k0_pay1⟩] rO.toLoadRect)⟩, ⟨rO, k0_pay1⟩]

omit [FloatOps F] in
theorem cover1 (p : Vec F S1x128 .f32) (y : S1x128.Idx) : ∃ pc ∈ ([⟨rO, p⟩] : List (View.Piece (Elt F) S1x128 .f32)), y ∈ pc.1.set :=
  View.cover_of_tiled [⟨rO, p⟩] S1x128.size (by rfl) y
omit [FloatOps F] in
theorem cover2 (p q : Vec F S1x128 .f32) (y : S1x128.Idx) : ∃ pc ∈ ([⟨rO, p⟩, ⟨rO, q⟩] : List (View.Piece (Elt F) S1x128 .f32)), y ∈ pc.1.set :=
  View.cover_of_tiled [⟨rO, p⟩, ⟨rO, q⟩] S1x128.size (by rfl) y

section Runs

variable (c : Dev nD) (i : grid0.Coords)
  (M0 : Memref sig .tc .vmem S512x1024 .f32) (h0 : M0.IsWhole) (M1 : Memref sig .tc .vmem S512x1024 .f32) (h1 : M1.IsWhole)
  (M2 : Memref sig .tc .vmem S1x128 .f32) (h2 : M2.IsWhole)
  (x0 x1 : Vec F S512x1024 .f32) (a : Vec F S1x128 .f32)

/-- An accumulating point that is not the first: the total at `a` ends at `stepv`. -/
theorem run_mid (hc1 : ¬ k0_cond1 i = 1#1) (hc2 : k0_cond2 i = 1#1) (Q : PUnit → sProp 𝕄) :
    iprop(owns (c : Thread nD τ) M0 fullShare x0 ∗ owns (c : Thread nD τ) M1 fullShare x1 ∗ owns (c : Thread nD τ) M2 fullShare a
      ∗ (iprop(owns (c : Thread nD τ) M0 fullShare x0 ∗ owns (c : Thread nD τ) M1 fullShare x1 ∗ owns (c : Thread nD τ) M2 fullShare (stepv i x0 x1 a)) -∗ Q ⟨⟩))
      ⊢ wp frame (wpE (defs₀ (F := F)) Variants.none c none) Set.univ (cc0__kernel i M0 h0 M1 h1 M2 h2) Q := by
  unfold owns
  iintro ⟨⟨%f0, %hf0, H0⟩, ⟨%f1, %hf1, H1⟩, ⟨%fa, %hfa, Ha⟩, Hk⟩
  subst hf0 hf1 hfa
  sl_exec! (disch := assumption)
  sl_step
  iapply Hk
  isplitl [H0]; · iexists f0; isplitr; (· ipureintro; rfl); iexact H0
  isplitl [H1]; · iexists f1; isplitr; (· ipureintro; rfl); iexact H1
  iexists _; isplitr; swap; (· iexact Ha); ipureintro; exact View.read_writes_eq_canon _ _ _ (cover1 _)

/-- The first point: the total's block, whatever it held, ends at `firstv`. -/
theorem run_first (hc1 : k0_cond1 i = 1#1) (hc2 : k0_cond2 i = 1#1) (Q : PUnit → sProp 𝕄) :
    iprop(owns (c : Thread nD τ) M0 fullShare x0 ∗ owns (c : Thread nD τ) M1 fullShare x1 ∗ (∃ d, owns (c : Thread nD τ) M2 fullShare d)
      ∗ (iprop(owns (c : Thread nD τ) M0 fullShare x0 ∗ owns (c : Thread nD τ) M1 fullShare x1 ∗ owns (c : Thread nD τ) M2 fullShare (firstv i M2 x0 x1)) -∗ Q ⟨⟩))
      ⊢ wp frame (wpE (defs₀ (F := F)) Variants.none c none) Set.univ (cc0__kernel i M0 h0 M1 h1 M2 h2) Q := by
  unfold owns
  iintro ⟨⟨%f0, %hf0, H0⟩, ⟨%f1, %hf1, H1⟩, ⟨%d, %fa, %hfa, Ha⟩, Hk⟩
  subst hf0 hf1
  sl_exec! (disch := assumption)
  sl_step
  iapply Hk
  isplitl [H0]; · iexists f0; isplitr; (· ipureintro; rfl); iexact H0
  isplitl [H1]; · iexists f1; isplitr; (· ipureintro; rfl); iexact H1
  iexists _; isplitr; swap; (· iexact Ha); ipureintro; exact View.read_writes_eq_canon _ _ _ (cover2 _ _)

/-- A point below the diagonal: the body touches nothing; whatever holds the total's block (`O`) passes through. -/
theorem run_idle (hc1 : ¬ k0_cond1 i = 1#1) (hc2 : ¬ k0_cond2 i = 1#1) (O : sProp 𝕄) (Q : PUnit → sProp 𝕄) :
    iprop(owns (c : Thread nD τ) M0 fullShare x0 ∗ owns (c : Thread nD τ) M1 fullShare x1 ∗ O
      ∗ (iprop(owns (c : Thread nD τ) M0 fullShare x0 ∗ owns (c : Thread nD τ) M1 fullShare x1 ∗ O) -∗ Q ⟨⟩))
      ⊢ wp frame (wpE (defs₀ (F := F)) Variants.none c none) Set.univ (cc0__kernel i M0 h0 M1 h1 M2 h2) Q := by
  iintro ⟨H0, H1, HO, Hk⟩
  sl_exec! (disch := assumption)
  sl_step
  iapply Hk
  isplitl [H0]; · iexact H0
  isplitl [H1]; · iexact H1
  iexact HO

end Runs

end Cert.Proof.K

end
-- ==== Proof.KRun.lean ====
/-
  The run of the kernel as printed: the pipeline's proof data, the body obligation at every grid point, and the launch.

  @main is one kernel region followed by four host lines (take entry [0, 0] of the 1 × 128 total, reshape it to a
  scalar, a constant, their quotient). The region is an 8 × 8 grid walked row by row; two input windows read row
  blocks i and j of ONE array — so the array's full share is dealt half and half to the two windows at entry, and
  both halves are read back at the end —, and one output window, resident over the whole grid and written back
  after the last point, carries the running total: zeroed and first added to at point 0, added to at the points on
  and above the diagonal, untouched (the window idle) below it. The total after each point is defined by
  recursion on the point (`accA`); what the body finds in the total's buffer after a run of idle points is what
  the last accumulating point left. The launch is the library's theorem for a region whose windows may share an
  array, continued by host lines; the lines run over the five buffers they touch, the total's array read at what
  the pipeline wrote back.
-/
import proofs.«113013_j7284264534292_1_alg».proof.Proof.KBody
import Idealize.ShloMosaic.Lib.Pipeline.TableIdle
import Idealize.ShloMosaic.Lib.Pipeline.Frame
import Idealize.ShloMosaic.Lib.Pipeline.FrameSuffix
import Idealize.ShloMosaic.Lib.Pipeline.Launch
import Idealize.ShloMosaic.Lib.StableHlo.Run

noncomputable section

namespace Cert.Proof.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kinds of grid point -/

theorem N_64 : cfg0.N = 64 := N_0

/-- The first branch (zero the total) is taken at the first point only; -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- the second (add the tile) at the points on and above the diagonal of the 8 × 8 grid, `t = 8 i + j` with `i ≤ j`. -/
theorem cond2_iff : ∀ t : Fin cfg0.N, k0_cond2 (grid0.coords t) = 1#1 ↔ t.val / 8 ≤ t.val % 8 :=
  (by decide +kernel : ∀ t : Fin grid0.N, k0_cond2 (grid0.coords t) = 1#1 ↔ t.val / 8 ≤ t.val % 8)

/-- The total's window is idle exactly where neither branch is taken; the row blocks' windows never. -/
theorem idle2_eq (t : Fin cfg0.N) : idle0 2 (grid0.coords t) = (!(k0_cond1 (grid0.coords t) == 1#1) && !(k0_cond2 (grid0.coords t) == 1#1)) := rfl
theorem idle2_of_live (t : Fin cfg0.N) (h : k0_cond2 (grid0.coords t) = 1#1) : idle0 2 (grid0.coords t) = false := by
  rw [idle2_eq, show (k0_cond2 (grid0.coords t) == 1#1) = true from beq_iff_eq.mpr h]; simp
theorem idle2_of_dead (t : Fin cfg0.N) (h1 : ¬ k0_cond1 (grid0.coords t) = 1#1) (h2 : ¬ k0_cond2 (grid0.coords t) = 1#1) :
    idle0 2 (grid0.coords t) = true := by
  rw [idle2_eq, show (k0_cond1 (grid0.coords t) == 1#1) = false from beq_eq_false_iff_ne.mpr h1,
    show (k0_cond2 (grid0.coords t) == 1#1) = false from beq_eq_false_iff_ne.mpr h2]; rfl
theorem idle0_eq (t : Fin cfg0.N) : idle0 0 (grid0.coords t) = false := rfl
theorem idle1_eq (t : Fin cfg0.N) : idle0 1 (grid0.coords t) = false := rfl

/-- The total's block is written back at the last point only. -/
theorem flush2_of_lt (t : Fin cfg0.N) (h : t.val ≠ 63) : (win0 2).flush t = false :=
  Bool.eq_false_iff.mpr fun hf => by
    have h1 := (flush0_2 t).mp hf
    have h2 : t.val < 64 := lt_of_lt_of_eq t.isLt N_64
    omega

/-- Whether the total's buffer still holds nothing the body stored: only before the first point (and after the last). -/
def freshTab : ℕ → Bool := fun n => n == 0 || n == 64
theorem fresh2 : ∀ n, n ≤ cfg0.N → cfg0.fresh 2 n = freshTab n :=
  Pipeline.Cfg.fresh_tab (cfg := cfg0) 2 freshTab rfl
    (by decide +kernel : ∀ t : Fin grid0.N, freshTab (t.val + 1) = ((cfg0.win 2).flush t || (cfg0.idle 2 (grid0.coords t) && freshTab t.val)))

variable (m : (ℓ : Loc nD τ sig) → Buf (Elt F) ℓ) (ρ : Dev nD → PrngReg)

/-! ## The arrays and their blocks -/

/-- Core `c`'s buffers when the region is entered: as launched (no host line precedes the region). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The total's staging memref at point `t`, as the pipeline passes it to the body. -/
abbrev ms2 (t : Fin cfg0.N) : Memref sig .tc .vmem S1x128 .f32 := st0_2 t

/-! ## The running total after each point -/

/-- What the total's buffer holds after point `k`: the first point's value, then each accumulating point's step on
    what the point before left, carried unchanged over the points below the diagonal. -/
def accA (c : Dev nD) : (k : ℕ) → k < cfg0.N → Vec F S1x128 .f32
  | 0, hk => firstv (grid0.coords ⟨0, hk⟩) (ms2 ⟨0, hk⟩) (iblk m c 0 ⟨0, hk⟩) (iblk m c 1 ⟨0, hk⟩)
  | k + 1, hk =>
    if k0_cond2 (grid0.coords ⟨k + 1, hk⟩) = 1#1 then
      stepv (grid0.coords ⟨k + 1, hk⟩) (iblk m c 0 ⟨k + 1, hk⟩) (iblk m c 1 ⟨k + 1, hk⟩) (accA c k (Nat.lt_of_succ_lt hk))
    else accA c k (Nat.lt_of_succ_lt hk)

theorem accA_first (c : Dev nD) (t : Fin cfg0.N) (h : t.val = 0) :
    accA m c t.val t.isLt = firstv (grid0.coords t) (ms2 t) (iblk m c 0 t) (iblk m c 1 t) := by
  obtain ⟨k, hk⟩ := t
  cases k with
  | zero => rfl
  | succ k => exact absurd h (Nat.succ_ne_zero k)

theorem accA_live (c : Dev nD) (t : Fin cfg0.N) (h0 : t.val ≠ 0) (h2 : k0_cond2 (grid0.coords t) = 1#1) (hp : t.val - 1 < cfg0.N) :
    accA m c t.val t.isLt = stepv (grid0.coords t) (iblk m c 0 t) (iblk m c 1 t) (accA m c (t.val - 1) hp) := by
  obtain ⟨k, hk⟩ := t
  cases k with
  | zero => exact absurd rfl h0
  | succ k => show (if _ then _ else _) = _; rw [if_pos h2]; rfl

theorem accA_dead (c : Dev nD) (t : Fin cfg0.N) (h0 : t.val ≠ 0) (h2 : ¬ k0_cond2 (grid0.coords t) = 1#1) (hp : t.val - 1 < cfg0.N) :
    accA m c t.val t.isLt = accA m c (t.val - 1) hp := by
  obtain ⟨k, hk⟩ := t
  cases k with
  | zero => exact absurd rfl h0
  | succ k => show (if _ then _ else _) = _; rw [if_neg h2]; rfl

/-! ## The proof data -/

/-- The pipeline's proof data on core `c`: the arrays as launched; after the body each row block's buffer at its
    block and the total's at `accA`; the invariant only the scoped buffers no window stages; the input array, read
    through two windows, held half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accA m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = accA m c t.val t.isLt := by dsimp only [dats]

/-- Each row block's buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- After the first point the total's buffer holds what the point before left, through any run of points below
    the diagonal. -/
theorem before_2 (c : Dev nD) (t : Fin cfg0.N) (h0 : t.val ≠ 0) (d) :
    (dats m 0 c).before 2 t d = accA m c (t.val - 1) (Nat.lt_of_le_of_lt (Nat.sub_le _ _) t.isLt) := by
  have hN : t.val < 64 := lt_of_lt_of_eq t.isLt N_64
  have hfr : cfg0.fresh 2 t.val = false := by
    rw [fresh2 t.val (Nat.le_of_lt t.isLt)]; unfold freshTab
    rw [show (t.val == 0) = false from beq_eq_false_iff_ne.mpr h0, show (t.val == 64) = false from beq_eq_false_iff_ne.mpr (by omega)]; rfl
  rw [(dats m 0 c).before_out_traj 2 rfl (fun _ _ => rfl) (fun s hs hi _ => by
      rw [after_2, after_2]
      have h2 : ¬ k0_cond2 (grid0.coords s) = 1#1 := fun h => Bool.false_ne_true ((idle2_of_live s h).symm.trans hi)
      exact accA_dead m c s hs h2 _) t.val t rfl d, hfr, if_neg Bool.false_ne_true, after_2]

/-! ## The body obligation -/

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

set_option maxHeartbeats 800000 in
/-- At every point, by its kind: the run of that kind applied, the invariant passed through unread. -/
theorem body_obligation (c : Dev nD) : BodyObligation (dats (F := F) m 0 c) (defs₀ (F := F)) Variants.none () Set.univ := fun t => by
  rw [bigSep_W0, bigSep_W0]
  unfold Dat.owesAt Pipeline.owesWithin
  rw [show (dats m 0 c).owed t.castSucc = 0 from rfl,
    show (dats m 0 c).Φ t.succ = (dats m 0 c).Φ t.castSucc from rfl]
  have hN : t.val < 64 := lt_of_lt_of_eq t.isLt N_64
  by_cases h0 : t.val = 0
  · -- the first point: both branches taken
    have hc1 : k0_cond1 (grid0.coords t) = 1#1 := (cond1_iff t).mpr h0
    have hc2 : k0_cond2 (grid0.coords t) = 1#1 := (cond2_iff t).mpr (by rw [h0])
    simp only [idle0_eq, idle1_eq, idle2_of_live t hc2, before_0, before_1, after_0, after_1, after_2]
    rw [accA_first m c t h0]
    iintro ⟨HΦ, ⟨%Wt, %hW, HO⟩, ⟨%d0, H0⟩, ⟨%d1, H1⟩, ⟨%d2, H2⟩⟩
    iapply (run_first c (grid0.coords t) (st0_0 t) (hstage0_0 ((cfg0.slots t 0).cast nbuf0_0)) (st0_1 t) (hstage0_1 ((cfg0.slots t 1).cast nbuf0_1))
      (ms2 t) (hstage0_2 ((cfg0.slots t 2).cast nbuf0_2)) (iblk m c 0 t) (iblk m c 1 t) hc1 hc2)
    isplitl [H0]; · iexact H0
    isplitl [H1]; · iexact H1
    isplitl [H2]; · iexists _; iexact H2
    iintro ⟨H0, H1, H2⟩
    isplitl [HΦ]; · iexact HΦ
    isplitl [HO]; · iapply (owesAt_intro m c); iexact HO
    isplitl [H0]; · iexact H0
    isplitl [H1]; · iexact H1
    iexact H2
  · have hc1 : ¬ k0_cond1 (grid0.coords t) = 1#1 := fun h => h0 ((cond1_iff t).mp h)
    by_cases hc2 : k0_cond2 (grid0.coords t) = 1#1
    · -- on or above the diagonal: the tile is added to what the point before left
      simp only [idle0_eq, idle1_eq, idle2_of_live t hc2, before_0, before_1, before_2 m c t h0, after_0, after_1, after_2]
      rw [accA_live m c t h0 hc2 (Nat.lt_of_le_of_lt (Nat.sub_le _ _) t.isLt)]
      iintro ⟨HΦ, ⟨%Wt, %hW, HO⟩, ⟨%d0, H0⟩, ⟨%d1, H1⟩, ⟨%d2, H2⟩⟩
      iapply (run_mid c (grid0.coords t) (st0_0 t) (hstage0_0 ((cfg0.slots t 0).cast nbuf0_0)) (st0_1 t) (hstage0_1 ((cfg0.slots t 1).cast nbuf0_1))
        (ms2 t) (hstage0_2 ((cfg0.slots t 2).cast nbuf0_2)) (iblk m c 0 t) (iblk m c 1 t) _ hc1 hc2)
      isplitl [H0]; · iexact H0
      isplitl [H1]; · iexact H1
      isplitl [H2]; · iexact H2
      iintro ⟨H0, H1, H2⟩
      isplitl [HΦ]; · iexact HΦ
      isplitl [HO]; · iapply (owesAt_intro m c); iexact HO
      isplitl [H0]; · iexact H0
      isplitl [H1]; · iexact H1
      iexact H2
    · -- below the diagonal: nothing is touched
      have h63 : t.val ≠ 63 := fun h => hc2 ((cond2_iff t).mpr (by rw [h]))
      simp only [idle0_eq, idle1_eq, idle2_of_dead t hc1 hc2, flush2_of_lt t h63, before_0, before_1, after_0, after_1]
      iintro ⟨HΦ, ⟨%Wt, %hW, HO⟩, ⟨%d0, H0⟩, ⟨%d1, H1⟩, H2⟩
      iapply (run_idle c (grid0.coords t) (st0_0 t) (hstage0_0 ((cfg0.slots t 0).cast nbuf0_0)) (st0_1 t) (hstage0_1 ((cfg0.slots t 1).cast nbuf0_1))
        (ms2 t) (hstage0_2 ((cfg0.slots t 2).cast nbuf0_2)) (iblk m c 0 t) (iblk m c 1 t) hc1 hc2 _)
      isplitl [H0]; · iexact H0
      isplitl [H1]; · iexact H1
      isplitl [H2]; · iexact H2
      iintro ⟨H0, H1, H2⟩
      isplitl [HΦ]; · iexact HΦ
      isplitl [HO]; · iapply (owesAt_intro m c); iexact HO
      isplitl [H0]; · iexact H0
      isplitl [H1]; · iexact H1
      iexact H2

/-! ## The launch -/

/-- No prefetched table: the one admissible contents. -/
abbrev adm : (p : Fin 1) → (pcfgs (F := F) p).Adm := fun p => (cfgs p).toPCfg_adm
/-- The pipeline library's algebra is the whole of the proof's. -/
abbrev EP : Emb (UR sig nD τ) (MT nD τ sig Unit (Elt F) ℕ (UR sig nD τ) ℕ) := emb₁
/-- The launch element: the pipeline library's, at the staging cells. -/
def u₀ : UR sig nD τ := initOf (Pipeline.cells cfgs cellOf_inj) (Pipeline.launchToks cfgs cellOf_inj)

/-- A full share is its two halves. -/
local instance : IsOp fullShare fullShare.left fullShare.right := IsOp.posShare_halves fullShare

/-- The windows' arrays one by one: the input array twice, half and half (two windows read it), the total's whole. -/
theorem arrays3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [show (bigSep Finset.univ fun w : Fin cfg0.W => ((cfg0.win w).arr.view.loc (c : Thread nD τ) ↦[(cfg0.win w).arr.view.set]{(dats m 0 c).share w} G w : sProp 𝕄))
        = bigSep Finset.univ fun w : Fin cfg0.W => (((c : Thread nD τ).loc (Pipeline.arrRef spec0 w)) ↦{(dats m 0 c).share w} G w : sProp 𝕄)
      from bigSep_congr fun w _ => by rw [(arr_whole0 w).set_eq_univ], bigSep_W0]
  rfl

/-- ENTRY: the two buffers behind the three windows' arrays, whole, deal the input array's halves to its two windows. -/
theorem hsplit (c : Dev nD) : (Pipeline.arrBufs spec0 c (V m c) : sProp 𝕄) ⊢ (dats m 0 c).arrays ((dats m 0 c).arrAt · 0) := by
  rw [arrays3]
  unfold Pipeline.arrBufs
  rw [bigSep_eq_bigSepL_of_eq [main_arg0, main_v0] (by decide) (by decide)]
  show iprop((((c : Thread nD τ).loc main_arg0) ↦{fullShare} V m c main_arg0) ∗ (((c : Thread nD τ).loc main_v0) ↦{fullShare} V m c main_v0)) ⊢ _
  iintro ⟨Ha, Hv⟩
  icases Ha with ⟨Hl, Hr⟩
  isplitl [Hl]; · iexact Hl
  isplitl [Hr]; · iexact Hr
  iexact Hv

/-! ### The host lines after the region -/

/-- The buffers the four host lines after the region touch: the total's array and their four results. -/
abbrev tailL : List (Ref sig .tc) := [main_v0, main_v1, main_v2, main_cst, main_v3]
abbrev tailS : Finset (DevRef τ sig) := tailL.toFinset.map ⟨Proc.devRef (sig := sig) .tc, Proc.devRef_injective _⟩

omit [FloatOps F] in
theorem held_tail (c : Dev nD) (W : Valuation τ sig (Elt F)) :
    (StableHlo.held (c : Thread nD τ) tailS W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_cst) ↦{fullShare} W main_cst)
          ∗ (((c : Thread nD τ).loc main_v3) ↦{fullShare} W main_v3)) := by
  unfold StableHlo.held
  rw [bigSep_map, bigSep_eq_bigSepL tailL (by decide)]
  rfl

theorem tail_sub : ∀ ops ∈ [hostOps1 (F := F)], ∀ op ∈ ops, op.bufs ⊆ tailS := by
  intro ops hops op h
  rw [List.mem_singleton] at hops; subst hops
  simp only [List.mem_cons, List.mem_nil_iff, or_false] at h
  rcases h with rfl | rfl | rfl | rfl
  · rw [StableHlo.unary_bufs]; decide
  · rw [StableHlo.reshape_bufs]; decide
  · rw [StableHlo.nullary_bufs]; decide
  · rw [StableHlo.binary_bufs]; decide

theorem tail_fresh : ∀ ops ∈ [hostOps1 (F := F)], ∀ op ∈ ops, op.fresh = ∅ := by
  intro ops hops op h
  rw [List.mem_singleton] at hops; subst hops
  (repeat (cases h with | head => rfl | tail _ h => ?_)); exact nomatch h

/-- No host line after the region writes the total's array. -/
theorem v0_not_written : ∀ op ∈ (hostOps1 (F := F)), Proc.devRef .tc main_v0 ∉ op.writes := by
  intro op h
  simp only [List.mem_cons, List.mem_nil_iff, or_false] at h
  rcases h with rfl | rfl | rfl | rfl <;>
    simp only [StableHlo.unary_writes, StableHlo.binary_writes, StableHlo.nullary_writes, StableHlo.reshape_writes, Finset.mem_singleton] <;>
    exact StableHlo.devRef_ne_of_ne (by decide)

/-- The core's buffers when the region is left: the total's array at what the pipeline wrote back, the rest as launched. -/
def Wt (c : Dev nD) : Valuation τ sig (Elt F) :=
  Function.update (fun b => m (c, b)) (Proc.devRef .tc main_v0) ((dats m 0 c).arrAt 2 cfg0.N)

theorem Wt_v0 (c : Dev nD) : Wt m c main_v0 = (dats m 0 c).arrAt 2 cfg0.N := Function.update_self ..
theorem Wt_ne (c : Dev nD) (b : Ref sig .tc) (h : b ≠ main_v0) : Wt m c b = V m c b :=
  Function.update_of_ne (StableHlo.devRef_ne_of_ne h) ..

/-- The program's result: what the four host lines make of the total's array. -/
def outV (c : Dev nD) : Buf (Elt F) ((c : Thread nD τ).loc main_v3) := StableHlo.after hostOps1 (Wt m c) main_v3

/-- What the host lines leave for the end: the result's buffer. -/
def Zout (c : Dev nD) : sProp 𝕄 := ((c : Thread nD τ).loc main_v3) ↦{fullShare} outV m c

set_option backward.isDefEq.respectTransparency.types false in
/-- The host lines after the region: from the arrays as the pipeline left them and the bypassing buffers as launched,
    they run, reading the total's array and writing their four results, and give the arrays back untouched. -/
theorem htail (c : Dev nD) (Q' : PUnit → sProp 𝕄) :
    iprop((iprop((dats m 0 c).arrays ((dats m 0 c).arrAt · cfg0.N) ∗ Zout m c) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c : Thread nD τ) none) Set.univ
          (Pipeline.chain ([hostOps1 (F := F)].map StableHlo.seq)) Q' := by
  rw [arrays3, unscopedRest0_eq]
  have hseq := Pipeline.wp_seqs_then (Ix := Unit) (Name := ℕ) (U := UR sig nD τ) (Lvl := ℕ) (pcfgs (F := F)) defs₀ Variants.none c tailS [] (K := Q')
    [hostOps1 (F := F)] tail_sub tail_fresh (Wt m c)
  rw [held_tail, held_tail, List.append_nil] at hseq
  have e0 : StableHlo.after [hostOps1 (F := F)].flatten (Wt m c) main_v0 = (dats m 0 c).arrAt 2 cfg0.N := by
    rw [List.flatten_cons, List.flatten_nil, List.append_nil,
      StableHlo.after_of_forall_not_mem (b := Proc.devRef .tc main_v0) hostOps1 (Wt m c) v0_not_written]
    exact Wt_v0 m c
  rw [e0, Wt_v0, Wt_ne m c main_v1 (by decide), Wt_ne m c main_v2 (by decide), Wt_ne m c main_cst (by decide), Wt_ne m c main_v3 (by decide)] at hseq
  iintro ⟨Hk, Hbd, ⟨Hl, Hr, H0⟩, H1, H2, Hc, H3⟩
  iapply hseq $$ [Hbd H0 H1 H2 Hc H3]
  · isplitl [Hbd]; · iexact Hbd
    isplitl [H0]; · iexact H0
    isplitl [H1]; · iexact H1
    isplitl [H2]; · iexact H2
    isplitl [Hc]; · iexact Hc
    iexact H3
  iintro ⟨Hbd, H0, -, -, -, H3⟩
  rw [Pipeline.chain_nil, wp_pure]
  imodintro
  iapply Hk
  isplitl [Hl Hr H0]
  · isplitl [Hl]; · iexact Hl
    isplitl [Hr]; · iexact Hr
    iexact H0
  · unfold Zout outV
    rw [show [hostOps1 (F := F)].flatten = hostOps1 from by simp]
    iexact H3

/-! ### The run -/

-- the launch theorem's implicit arguments are found by unifying its conclusion with this one, which takes unfolding
-- plain definitions in a metavariable's type
set_option backward.isDefEq.respectTransparency.types false in
/-- At the compiled mesh, from any memory with zero counters: every weakly fair execution of @main on the TensorCores
    terminates, nothing faulting; the result's buffer ends at `outV` and the argument array as launched. -/
theorem run_main : θ_run defs (onTc (τ := τ) (main (F := F))) ⟨m, fun _ => 0, ρ⟩ (fun r => ∀ c : Dev nD,
      r.2.mem ((c.tc : Thread nD τ).loc main_v3) = outV m c
      ∧ r.2.mem ((c.tc : Thread nD τ).loc main_arg0) = m ((c.tc : Thread nD τ).loc main_arg0)) :=
  Pipeline.θ_run_region_noSem_pf_tail (pcfgs (F := F)) adm (dats m) () cellOf_inj 0 winFacts₀0 (Pipeline.PreFacts.none _) EP defs₀ Variants.none
    m ρ main (fun _ => Pipeline.chain ([hostOps1 (F := F)].map StableHlo.seq))
    (hbody := fun c => (body_obligation m c).loose) (hne := block_pos0) (harr := arr_whole0) (hstage := stage_whole0)
    (howed := fun _ _ => rfl) (u₀ := u₀) (hu₀ := Entails.of_eq (ownU_emb₁ _)) (V := V m)
    (hmain := Pipeline.hmain_around cfgs 0 defs₀ Variants.none m main [] [hostOps1] trivial trivial (fun c => (main_chain c).trans rfl))
    (hsplit := hsplit m) (hpf := fun _ k => k.elim0)
    (X := fun _ => iprop(emp)) (Y := fun _ => iprop(emp)) (Z := fun c => Pipeline.unscopedRest spec0 c (V m c)) (Z' := Zout m)
    (hX := fun c => by
      rw [Pipeline.unscopedRestP_none]
      iintro H; isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, -, Hr⟩; iexact Hr)
    (hout := fun c => by
      rw [show (dats m 0 c).Φ (Fin.last cfg0.N) = Pipeline.scopedRest (Ix := Unit) (Name := ℕ) (U := UR sig nD τ) (Lvl := ℕ) (Val := Elt F) spec0 c from rfl]
      iintro H; isplitr; · iempintro
      iexact H)
    (htail := htail m)
    (QY := fun c s => s.mem ((c.tc : Thread nD τ).loc main_v3) = outV m c)
    (hY := fun c s' => by
      unfold Zout
      iintro ⟨-, H3, HSI⟩
      icombine HSI H3 gives %h
      imodintro
      isplitr; · ipureintro; exact Buf.eq_of_forall_mem_univ h
      iexact HSI)
    (hQ := fun s h c => ⟨(h c).2.2, ((h c).1 0).trans ((dats m 0 c).arrAt_in 0 rfl _)⟩)

end Cert.Proof.K

end
-- ==== Proof.KIBody.lean ====
/-
  The kernel body at one grid point, run symbolically.

  At grid point (i, j) of the 8 × 8 tile grid the body does one of three things to the 1 × 128 running-total block
  it is handed (the output window's staging buffer), reading the two 512 × 1024 row blocks of the input it is handed:
    * at the first point (i = j = 0): it stores zeros, then stores the tile's contribution added to what it reads
      back (the zeros);
    * at any other point on or above the diagonal (i ≤ j): it stores the tile's contribution added to what the
      block held;
    * below the diagonal (j < i): nothing — the block is left as found.
  Each run is stated on whole staging buffers at given contents and says what the total's buffer holds afterwards:
  the canonical reading of the stores made, over the body's one arithmetic term (the payload of the skeleton).
-/
import proofs.«113013_j7284264534292_1_alg».proof.Proof.Gen.KernelIdeal
import proofs.«113013_j7284264534292_1_alg».proof.Proof.Gen.KernelIdeal.Skeleton
import proofs.«113013_j7284264534292_1_alg».proof.Proof.Gen.KernelIdeal.Launch
import proofs.«113013_j7284264534292_1_alg».proof.Proof.Gen.KernelIdeal.Points
import Idealize.ShloMosaic.Lib.Writes
import Idealize.ShloMosaic.Lib.Pipeline.FrameBody
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rectangle of every access to the running total: the whole 1 × 128 block. -/
abbrev rO : Rect S1x128 := Rect.unit (s := S1x128) ![0, 0] S1x128.size inb_S1x128_S1x128_0_0
/-- The rectangle of every access to a row block: the whole 512 × 1024 block. -/
abbrev rI : Rect S512x1024 := Rect.unit (s := S512x1024) ![0, 0] S512x1024.size inb_S512x1024_S512x1024_0_0

/-- The two grid coordinates as the body's 32-bit words. -/
abbrev wI (i : grid0.Coords) : BitVec 32 := BitVec.ofNat 32 (i 0).val
abbrev wJ (i : grid0.Coords) : BitVec 32 := BitVec.ofNat 32 (i 1).val

/-- The total after an accumulating point: the tile's contribution added to the block's contents `a`. -/
abbrev stepv (i : grid0.Coords) (x0 x1 : Vec F S512x1024 .f32) (a : Vec F S1x128 .f32) : Vec F S1x128 .f32 :=
  View.canon [⟨rO, k0_pay2 (wI i) (wJ i) (View.ld x0 rI) (View.ld x1 rI) (View.ld a rO)⟩]
/-- The total after the first point: zeros stored, read back, and the first tile's contribution added. -/
abbrev firstv (i : grid0.Coords) (M2 : Memref sig .tc .vmem S1x128 .f32) (x0 x1 : Vec F S512x1024 .f32) : Vec F S1x128 .f32 :=
  View.canon [⟨rO, k0_pay2 (wI i) (wJ i) (View.ld x0 rI) (View.ld x1 rI) (M2.view.readCov [⟨rO, k0_pay1⟩] rO.toLoadRect)⟩, ⟨rO, k0_pay1⟩]

omit [FloatOps F] in
theorem cover1 (p : Vec F S1x128 .f32) (y : S1x128.Idx) : ∃ pc ∈ ([⟨rO, p⟩] : List (View.Piece (Elt F) S1x128 .f32)), y ∈ pc.1.set :=
  View.cover_of_tiled [⟨rO, p⟩] S1x128.size (by rfl) y
omit [FloatOps F] in
theorem cover2 (p q : Vec F S1x128 .f32) (y : S1x128.Idx) : ∃ pc ∈ ([⟨rO, p⟩, ⟨rO, q⟩] : List (View.Piece (Elt F) S1x128 .f32)), y ∈ pc.1.set :=
  View.cover_of_tiled [⟨rO, p⟩, ⟨rO, q⟩] S1x128.size (by rfl) y

section Runs

variable (c : Dev nD) (i : grid0.Coords)
  (M0 : Memref sig .tc .vmem S512x1024 .f32) (h0 : M0.IsWhole) (M1 : Memref sig .tc .vmem S512x1024 .f32) (h1 : M1.IsWhole)
  (M2 : Memref sig .tc .vmem S1x128 .f32) (h2 : M2.IsWhole)
  (x0 x1 : Vec F S512x1024 .f32) (a : Vec F S1x128 .f32)

/-- An accumulating point that is not the first: the total at `a` ends at `stepv`. -/
theorem run_mid (hc1 : ¬ k0_cond1 i = 1#1) (hc2 : k0_cond2 i = 1#1) (Q : PUnit → sProp 𝕄) :
    iprop(owns (c : Thread nD τ) M0 fullShare x0 ∗ owns (c : Thread nD τ) M1 fullShare x1 ∗ owns (c : Thread nD τ) M2 fullShare a
      ∗ (iprop(owns (c : Thread nD τ) M0 fullShare x0 ∗ owns (c : Thread nD τ) M1 fullShare x1 ∗ owns (c : Thread nD τ) M2 fullShare (stepv i x0 x1 a)) -∗ Q ⟨⟩))
      ⊢ wp frame (wpE (defs₀ (F := F)) Variants.none c none) Set.univ (cc0__kernel i M0 h0 M1 h1 M2 h2) Q := by
  unfold owns
  iintro ⟨⟨%f0, %hf0, H0⟩, ⟨%f1, %hf1, H1⟩, ⟨%fa, %hfa, Ha⟩, Hk⟩
  subst hf0 hf1 hfa
  sl_exec! (disch := assumption)
  sl_step
  iapply Hk
  isplitl [H0]; · iexists f0; isplitr; (· ipureintro; rfl); iexact H0
  isplitl [H1]; · iexists f1; isplitr; (· ipureintro; rfl); iexact H1
  iexists _; isplitr; swap; (· iexact Ha); ipureintro; exact View.read_writes_eq_canon _ _ _ (cover1 _)

/-- The first point: the total's block, whatever it held, ends at `firstv`. -/
theorem run_first (hc1 : k0_cond1 i = 1#1) (hc2 : k0_cond2 i = 1#1) (Q : PUnit → sProp 𝕄) :
    iprop(owns (c : Thread nD τ) M0 fullShare x0 ∗ owns (c : Thread nD τ) M1 fullShare x1 ∗ (∃ d, owns (c : Thread nD τ) M2 fullShare d)
      ∗ (iprop(owns (c : Thread nD τ) M0 fullShare x0 ∗ owns (c : Thread nD τ) M1 fullShare x1 ∗ owns (c : Thread nD τ) M2 fullShare (firstv i M2 x0 x1)) -∗ Q ⟨⟩))
      ⊢ wp frame (wpE (defs₀ (F := F)) Variants.none c none) Set.univ (cc0__kernel i M0 h0 M1 h1 M2 h2) Q := by
  unfold owns
  iintro ⟨⟨%f0, %hf0, H0⟩, ⟨%f1, %hf1, H1⟩, ⟨%d, %fa, %hfa, Ha⟩, Hk⟩
  subst hf0 hf1
  sl_exec! (disch := assumption)
  sl_step
  iapply Hk
  isplitl [H0]; · iexists f0; isplitr; (· ipureintro; rfl); iexact H0
  isplitl [H1]; · iexists f1; isplitr; (· ipureintro; rfl); iexact H1
  iexists _; isplitr; swap; (· iexact Ha); ipureintro; exact View.read_writes_eq_canon _ _ _ (cover2 _ _)

/-- A point below the diagonal: the body touches nothing; whatever holds the total's block (`O`) passes through. -/
theorem run_idle (hc1 : ¬ k0_cond1 i = 1#1) (hc2 : ¬ k0_cond2 i = 1#1) (O : sProp 𝕄) (Q : PUnit → sProp 𝕄) :
    iprop(owns (c : Thread nD τ) M0 fullShare x0 ∗ owns (c : Thread nD τ) M1 fullShare x1 ∗ O
      ∗ (iprop(owns (c : Thread nD τ) M0 fullShare x0 ∗ owns (c : Thread nD τ) M1 fullShare x1 ∗ O) -∗ Q ⟨⟩))
      ⊢ wp frame (wpE (defs₀ (F := F)) Variants.none c none) Set.univ (cc0__kernel i M0 h0 M1 h1 M2 h2) Q := by
  iintro ⟨H0, H1, HO, Hk⟩
  sl_exec! (disch := assumption)
  sl_step
  iapply Hk
  isplitl [H0]; · iexact H0
  isplitl [H1]; · iexact H1
  iexact HO

end Runs

end Cert.Proof.KI

end
-- ==== Proof.KIRun.lean ====
/-
  The run of the idealized kernel: the pipeline's proof data, the body obligation at every grid point, and the launch.

  @main is one kernel region followed by four host lines (take entry [0, 0] of the 1 × 128 total, reshape it to a
  scalar, a constant, their quotient). The region is an 8 × 8 grid walked row by row; two input windows read row
  blocks i and j of ONE array — so the array's full share is dealt half and half to the two windows at entry, and
  both halves are read back at the end —, and one output window, resident over the whole grid and written back
  after the last point, carries the running total: zeroed and first added to at point 0, added to at the points on
  and above the diagonal, untouched (the window idle) below it. The total after each point is defined by
  recursion on the point (`accA`); what the body finds in the total's buffer after a run of idle points is what
  the last accumulating point left. The launch is the library's theorem for a region whose windows may share an
  array, continued by host lines; the lines run over the five buffers they touch, the total's array read at what
  the pipeline wrote back.
-/
import proofs.«113013_j7284264534292_1_alg».proof.Proof.KIBody
import Idealize.ShloMosaic.Lib.Pipeline.TableIdle
import Idealize.ShloMosaic.Lib.Pipeline.Frame
import Idealize.ShloMosaic.Lib.Pipeline.FrameSuffix
import Idealize.ShloMosaic.Lib.Pipeline.Launch
import Idealize.ShloMosaic.Lib.StableHlo.Run

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kinds of grid point -/

theorem N_64 : cfg0.N = 64 := N_0

/-- The first branch (zero the total) is taken at the first point only; -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- the second (add the tile) at the points on and above the diagonal of the 8 × 8 grid, `t = 8 i + j` with `i ≤ j`. -/
theorem cond2_iff : ∀ t : Fin cfg0.N, k0_cond2 (grid0.coords t) = 1#1 ↔ t.val / 8 ≤ t.val % 8 :=
  (by decide +kernel : ∀ t : Fin grid0.N, k0_cond2 (grid0.coords t) = 1#1 ↔ t.val / 8 ≤ t.val % 8)

/-- The total's window is idle exactly where neither branch is taken; the row blocks' windows never. -/
theorem idle2_eq (t : Fin cfg0.N) : idle0 2 (grid0.coords t) = (!(k0_cond1 (grid0.coords t) == 1#1) && !(k0_cond2 (grid0.coords t) == 1#1)) := rfl
theorem idle2_of_live (t : Fin cfg0.N) (h : k0_cond2 (grid0.coords t) = 1#1) : idle0 2 (grid0.coords t) = false := by
  rw [idle2_eq, show (k0_cond2 (grid0.coords t) == 1#1) = true from beq_iff_eq.mpr h]; simp
theorem idle2_of_dead (t : Fin cfg0.N) (h1 : ¬ k0_cond1 (grid0.coords t) = 1#1) (h2 : ¬ k0_cond2 (grid0.coords t) = 1#1) :
    idle0 2 (grid0.coords t) = true := by
  rw [idle2_eq, show (k0_cond1 (grid0.coords t) == 1#1) = false from beq_eq_false_iff_ne.mpr h1,
    show (k0_cond2 (grid0.coords t) == 1#1) = false from beq_eq_false_iff_ne.mpr h2]; rfl
theorem idle0_eq (t : Fin cfg0.N) : idle0 0 (grid0.coords t) = false := rfl
theorem idle1_eq (t : Fin cfg0.N) : idle0 1 (grid0.coords t) = false := rfl

/-- The total's block is written back at the last point only. -/
theorem flush2_of_lt (t : Fin cfg0.N) (h : t.val ≠ 63) : (win0 2).flush t = false :=
  Bool.eq_false_iff.mpr fun hf => by
    have h1 := (flush0_2 t).mp hf
    have h2 : t.val < 64 := lt_of_lt_of_eq t.isLt N_64
    omega

/-- Whether the total's buffer still holds nothing the body stored: only before the first point (and after the last). -/
def freshTab : ℕ → Bool := fun n => n == 0 || n == 64
theorem fresh2 : ∀ n, n ≤ cfg0.N → cfg0.fresh 2 n = freshTab n :=
  Pipeline.Cfg.fresh_tab (cfg := cfg0) 2 freshTab rfl
    (by decide +kernel : ∀ t : Fin grid0.N, freshTab (t.val + 1) = ((cfg0.win 2).flush t || (cfg0.idle 2 (grid0.coords t) && freshTab t.val)))

variable (m : (ℓ : Loc nD τ sig) → Buf (Elt F) ℓ) (ρ : Dev nD → PrngReg)

/-! ## The arrays and their blocks -/

/-- Core `c`'s buffers when the region is entered: as launched (no host line precedes the region). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The total's staging memref at point `t`, as the pipeline passes it to the body. -/
abbrev ms2 (t : Fin cfg0.N) : Memref sig .tc .vmem S1x128 .f32 := st0_2 t

/-! ## The running total after each point -/

/-- What the total's buffer holds after point `k`: the first point's value, then each accumulating point's step on
    what the point before left, carried unchanged over the points below the diagonal. -/
def accA (c : Dev nD) : (k : ℕ) → k < cfg0.N → Vec F S1x128 .f32
  | 0, hk => firstv (grid0.coords ⟨0, hk⟩) (ms2 ⟨0, hk⟩) (iblk m c 0 ⟨0, hk⟩) (iblk m c 1 ⟨0, hk⟩)
  | k + 1, hk =>
    if k0_cond2 (grid0.coords ⟨k + 1, hk⟩) = 1#1 then
      stepv (grid0.coords ⟨k + 1, hk⟩) (iblk m c 0 ⟨k + 1, hk⟩) (iblk m c 1 ⟨k + 1, hk⟩) (accA c k (Nat.lt_of_succ_lt hk))
    else accA c k (Nat.lt_of_succ_lt hk)

theorem accA_first (c : Dev nD) (t : Fin cfg0.N) (h : t.val = 0) :
    accA m c t.val t.isLt = firstv (grid0.coords t) (ms2 t) (iblk m c 0 t) (iblk m c 1 t) := by
  obtain ⟨k, hk⟩ := t
  cases k with
  | zero => rfl
  | succ k => exact absurd h (Nat.succ_ne_zero k)

theorem accA_live (c : Dev nD) (t : Fin cfg0.N) (h0 : t.val ≠ 0) (h2 : k0_cond2 (grid0.coords t) = 1#1) (hp : t.val - 1 < cfg0.N) :
    accA m c t.val t.isLt = stepv (grid0.coords t) (iblk m c 0 t) (iblk m c 1 t) (accA m c (t.val - 1) hp) := by
  obtain ⟨k, hk⟩ := t
  cases k with
  | zero => exact absurd rfl h0
  | succ k => show (if _ then _ else _) = _; rw [if_pos h2]; rfl

theorem accA_dead (c : Dev nD) (t : Fin cfg0.N) (h0 : t.val ≠ 0) (h2 : ¬ k0_cond2 (grid0.coords t) = 1#1) (hp : t.val - 1 < cfg0.N) :
    accA m c t.val t.isLt = accA m c (t.val - 1) hp := by
  obtain ⟨k, hk⟩ := t
  cases k with
  | zero => exact absurd rfl h0
  | succ k => show (if _ then _ else _) = _; rw [if_neg h2]; rfl

/-! ## The proof data -/

/-- The pipeline's proof data on core `c`: the arrays as launched; after the body each row block's buffer at its
    block and the total's at `accA`; the invariant only the scoped buffers no window stages; the input array, read
    through two windows, held half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accA m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = accA m c t.val t.isLt := by dsimp only [dats]

/-- Each row block's buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- After the first point the total's buffer holds what the point before left, through any run of points below
    the diagonal. -/
theorem before_2 (c : Dev nD) (t : Fin cfg0.N) (h0 : t.val ≠ 0) (d) :
    (dats m 0 c).before 2 t d = accA m c (t.val - 1) (Nat.lt_of_le_of_lt (Nat.sub_le _ _) t.isLt) := by
  have hN : t.val < 64 := lt_of_lt_of_eq t.isLt N_64
  have hfr : cfg0.fresh 2 t.val = false := by
    rw [fresh2 t.val (Nat.le_of_lt t.isLt)]; unfold freshTab
    rw [show (t.val == 0) = false from beq_eq_false_iff_ne.mpr h0, show (t.val == 64) = false from beq_eq_false_iff_ne.mpr (by omega)]; rfl
  rw [(dats m 0 c).before_out_traj 2 rfl (fun _ _ => rfl) (fun s hs hi _ => by
      rw [after_2, after_2]
      have h2 : ¬ k0_cond2 (grid0.coords s) = 1#1 := fun h => Bool.false_ne_true ((idle2_of_live s h).symm.trans hi)
      exact accA_dead m c s hs h2 _) t.val t rfl d, hfr, if_neg Bool.false_ne_true, after_2]

/-! ## The body obligation -/

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

set_option maxHeartbeats 800000 in
/-- At every point, by its kind: the run of that kind applied, the invariant passed through unread. -/
theorem body_obligation (c : Dev nD) : BodyObligation (dats (F := F) m 0 c) (defs₀ (F := F)) Variants.none () Set.univ := fun t => by
  rw [bigSep_W0, bigSep_W0]
  unfold Dat.owesAt Pipeline.owesWithin
  rw [show (dats m 0 c).owed t.castSucc = 0 from rfl,
    show (dats m 0 c).Φ t.succ = (dats m 0 c).Φ t.castSucc from rfl]
  have hN : t.val < 64 := lt_of_lt_of_eq t.isLt N_64
  by_cases h0 : t.val = 0
  · -- the first point: both branches taken
    have hc1 : k0_cond1 (grid0.coords t) = 1#1 := (cond1_iff t).mpr h0
    have hc2 : k0_cond2 (grid0.coords t) = 1#1 := (cond2_iff t).mpr (by rw [h0])
    simp only [idle0_eq, idle1_eq, idle2_of_live t hc2, before_0, before_1, after_0, after_1, after_2]
    rw [accA_first m c t h0]
    iintro ⟨HΦ, ⟨%Wt, %hW, HO⟩, ⟨%d0, H0⟩, ⟨%d1, H1⟩, ⟨%d2, H2⟩⟩
    iapply (run_first c (grid0.coords t) (st0_0 t) (hstage0_0 ((cfg0.slots t 0).cast nbuf0_0)) (st0_1 t) (hstage0_1 ((cfg0.slots t 1).cast nbuf0_1))
      (ms2 t) (hstage0_2 ((cfg0.slots t 2).cast nbuf0_2)) (iblk m c 0 t) (iblk m c 1 t) hc1 hc2)
    isplitl [H0]; · iexact H0
    isplitl [H1]; · iexact H1
    isplitl [H2]; · iexists _; iexact H2
    iintro ⟨H0, H1, H2⟩
    isplitl [HΦ]; · iexact HΦ
    isplitl [HO]; · iapply (owesAt_intro m c); iexact HO
    isplitl [H0]; · iexact H0
    isplitl [H1]; · iexact H1
    iexact H2
  · have hc1 : ¬ k0_cond1 (grid0.coords t) = 1#1 := fun h => h0 ((cond1_iff t).mp h)
    by_cases hc2 : k0_cond2 (grid0.coords t) = 1#1
    · -- on or above the diagonal: the tile is added to what the point before left
      simp only [idle0_eq, idle1_eq, idle2_of_live t hc2, before_0, before_1, before_2 m c t h0, after_0, after_1, after_2]
      rw [accA_live m c t h0 hc2 (Nat.lt_of_le_of_lt (Nat.sub_le _ _) t.isLt)]
      iintro ⟨HΦ, ⟨%Wt, %hW, HO⟩, ⟨%d0, H0⟩, ⟨%d1, H1⟩, ⟨%d2, H2⟩⟩
      iapply (run_mid c (grid0.coords t) (st0_0 t) (hstage0_0 ((cfg0.slots t 0).cast nbuf0_0)) (st0_1 t) (hstage0_1 ((cfg0.slots t 1).cast nbuf0_1))
        (ms2 t) (hstage0_2 ((cfg0.slots t 2).cast nbuf0_2)) (iblk m c 0 t) (iblk m c 1 t) _ hc1 hc2)
      isplitl [H0]; · iexact H0
      isplitl [H1]; · iexact H1
      isplitl [H2]; · iexact H2
      iintro ⟨H0, H1, H2⟩
      isplitl [HΦ]; · iexact HΦ
      isplitl [HO]; · iapply (owesAt_intro m c); iexact HO
      isplitl [H0]; · iexact H0
      isplitl [H1]; · iexact H1
      iexact H2
    · -- below the diagonal: nothing is touched
      have h63 : t.val ≠ 63 := fun h => hc2 ((cond2_iff t).mpr (by rw [h]))
      simp only [idle0_eq, idle1_eq, idle2_of_dead t hc1 hc2, flush2_of_lt t h63, before_0, before_1, after_0, after_1]
      iintro ⟨HΦ, ⟨%Wt, %hW, HO⟩, ⟨%d0, H0⟩, ⟨%d1, H1⟩, H2⟩
      iapply (run_idle c (grid0.coords t) (st0_0 t) (hstage0_0 ((cfg0.slots t 0).cast nbuf0_0)) (st0_1 t) (hstage0_1 ((cfg0.slots t 1).cast nbuf0_1))
        (ms2 t) (hstage0_2 ((cfg0.slots t 2).cast nbuf0_2)) (iblk m c 0 t) (iblk m c 1 t) hc1 hc2 _)
      isplitl [H0]; · iexact H0
      isplitl [H1]; · iexact H1
      isplitl [H2]; · iexact H2
      iintro ⟨H0, H1, H2⟩
      isplitl [HΦ]; · iexact HΦ
      isplitl [HO]; · iapply (owesAt_intro m c); iexact HO
      isplitl [H0]; · iexact H0
      isplitl [H1]; · iexact H1
      iexact H2

/-! ## The launch -/

/-- No prefetched table: the one admissible contents. -/
abbrev adm : (p : Fin 1) → (pcfgs (F := F) p).Adm := fun p => (cfgs p).toPCfg_adm
/-- The pipeline library's algebra is the whole of the proof's. -/
abbrev EP : Emb (UR sig nD τ) (MT nD τ sig Unit (Elt F) ℕ (UR sig nD τ) ℕ) := emb₁
/-- The launch element: the pipeline library's, at the staging cells. -/
def u₀ : UR sig nD τ := initOf (Pipeline.cells cfgs cellOf_inj) (Pipeline.launchToks cfgs cellOf_inj)

/-- A full share is its two halves. -/
local instance : IsOp fullShare fullShare.left fullShare.right := IsOp.posShare_halves fullShare

/-- The windows' arrays one by one: the input array twice, half and half (two windows read it), the total's whole. -/
theorem arrays3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [show (bigSep Finset.univ fun w : Fin cfg0.W => ((cfg0.win w).arr.view.loc (c : Thread nD τ) ↦[(cfg0.win w).arr.view.set]{(dats m 0 c).share w} G w : sProp 𝕄))
        = bigSep Finset.univ fun w : Fin cfg0.W => (((c : Thread nD τ).loc (Pipeline.arrRef spec0 w)) ↦{(dats m 0 c).share w} G w : sProp 𝕄)
      from bigSep_congr fun w _ => by rw [(arr_whole0 w).set_eq_univ], bigSep_W0]
  rfl

/-- ENTRY: the two buffers behind the three windows' arrays, whole, deal the input array's halves to its two windows. -/
theorem hsplit (c : Dev nD) : (Pipeline.arrBufs spec0 c (V m c) : sProp 𝕄) ⊢ (dats m 0 c).arrays ((dats m 0 c).arrAt · 0) := by
  rw [arrays3]
  unfold Pipeline.arrBufs
  rw [bigSep_eq_bigSepL_of_eq [main_arg0, main_v0] (by decide) (by decide)]
  show iprop((((c : Thread nD τ).loc main_arg0) ↦{fullShare} V m c main_arg0) ∗ (((c : Thread nD τ).loc main_v0) ↦{fullShare} V m c main_v0)) ⊢ _
  iintro ⟨Ha, Hv⟩
  icases Ha with ⟨Hl, Hr⟩
  isplitl [Hl]; · iexact Hl
  isplitl [Hr]; · iexact Hr
  iexact Hv

/-! ### The host lines after the region -/

/-- The buffers the four host lines after the region touch: the total's array and their four results. -/
abbrev tailL : List (Ref sig .tc) := [main_v0, main_v1, main_v2, main_cst, main_v3]
abbrev tailS : Finset (DevRef τ sig) := tailL.toFinset.map ⟨Proc.devRef (sig := sig) .tc, Proc.devRef_injective _⟩

omit [FloatOps F] in
theorem held_tail (c : Dev nD) (W : Valuation τ sig (Elt F)) :
    (StableHlo.held (c : Thread nD τ) tailS W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_cst) ↦{fullShare} W main_cst)
          ∗ (((c : Thread nD τ).loc main_v3) ↦{fullShare} W main_v3)) := by
  unfold StableHlo.held
  rw [bigSep_map, bigSep_eq_bigSepL tailL (by decide)]
  rfl

theorem tail_sub : ∀ ops ∈ [hostOps1 (F := F)], ∀ op ∈ ops, op.bufs ⊆ tailS := by
  intro ops hops op h
  rw [List.mem_singleton] at hops; subst hops
  simp only [List.mem_cons, List.mem_nil_iff, or_false] at h
  rcases h with rfl | rfl | rfl | rfl
  · rw [StableHlo.unary_bufs]; decide
  · rw [StableHlo.reshape_bufs]; decide
  · rw [StableHlo.nullary_bufs]; decide
  · rw [StableHlo.binary_bufs]; decide

theorem tail_fresh : ∀ ops ∈ [hostOps1 (F := F)], ∀ op ∈ ops, op.fresh = ∅ := by
  intro ops hops op h
  rw [List.mem_singleton] at hops; subst hops
  (repeat (cases h with | head => rfl | tail _ h => ?_)); exact nomatch h

/-- No host line after the region writes the total's array. -/
theorem v0_not_written : ∀ op ∈ (hostOps1 (F := F)), Proc.devRef .tc main_v0 ∉ op.writes := by
  intro op h
  simp only [List.mem_cons, List.mem_nil_iff, or_false] at h
  rcases h with rfl | rfl | rfl | rfl <;>
    simp only [StableHlo.unary_writes, StableHlo.binary_writes, StableHlo.nullary_writes, StableHlo.reshape_writes, Finset.mem_singleton] <;>
    exact StableHlo.devRef_ne_of_ne (by decide)

/-- The core's buffers when the region is left: the total's array at what the pipeline wrote back, the rest as launched. -/
def Wt (c : Dev nD) : Valuation τ sig (Elt F) :=
  Function.update (fun b => m (c, b)) (Proc.devRef .tc main_v0) ((dats m 0 c).arrAt 2 cfg0.N)

theorem Wt_v0 (c : Dev nD) : Wt m c main_v0 = (dats m 0 c).arrAt 2 cfg0.N := Function.update_self ..
theorem Wt_ne (c : Dev nD) (b : Ref sig .tc) (h : b ≠ main_v0) : Wt m c b = V m c b :=
  Function.update_of_ne (StableHlo.devRef_ne_of_ne h) ..

/-- The program's result: what the four host lines make of the total's array. -/
def outV (c : Dev nD) : Buf (Elt F) ((c : Thread nD τ).loc main_v3) := StableHlo.after hostOps1 (Wt m c) main_v3

/-- What the host lines leave for the end: the result's buffer. -/
def Zout (c : Dev nD) : sProp 𝕄 := ((c : Thread nD τ).loc main_v3) ↦{fullShare} outV m c

set_option backward.isDefEq.respectTransparency.types false in
/-- The host lines after the region: from the arrays as the pipeline left them and the bypassing buffers as launched,
    they run, reading the total's array and writing their four results, and give the arrays back untouched. -/
theorem htail (c : Dev nD) (Q' : PUnit → sProp 𝕄) :
    iprop((iprop((dats m 0 c).arrays ((dats m 0 c).arrAt · cfg0.N) ∗ Zout m c) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c : Thread nD τ) none) Set.univ
          (Pipeline.chain ([hostOps1 (F := F)].map StableHlo.seq)) Q' := by
  rw [arrays3, unscopedRest0_eq]
  have hseq := Pipeline.wp_seqs_then (Ix := Unit) (Name := ℕ) (U := UR sig nD τ) (Lvl := ℕ) (pcfgs (F := F)) defs₀ Variants.none c tailS [] (K := Q')
    [hostOps1 (F := F)] tail_sub tail_fresh (Wt m c)
  rw [held_tail, held_tail, List.append_nil] at hseq
  have e0 : StableHlo.after [hostOps1 (F := F)].flatten (Wt m c) main_v0 = (dats m 0 c).arrAt 2 cfg0.N := by
    rw [List.flatten_cons, List.flatten_nil, List.append_nil,
      StableHlo.after_of_forall_not_mem (b := Proc.devRef .tc main_v0) hostOps1 (Wt m c) v0_not_written]
    exact Wt_v0 m c
  rw [e0, Wt_v0, Wt_ne m c main_v1 (by decide), Wt_ne m c main_v2 (by decide), Wt_ne m c main_cst (by decide), Wt_ne m c main_v3 (by decide)] at hseq
  iintro ⟨Hk, Hbd, ⟨Hl, Hr, H0⟩, H1, H2, Hc, H3⟩
  iapply hseq $$ [Hbd H0 H1 H2 Hc H3]
  · isplitl [Hbd]; · iexact Hbd
    isplitl [H0]; · iexact H0
    isplitl [H1]; · iexact H1
    isplitl [H2]; · iexact H2
    isplitl [Hc]; · iexact Hc
    iexact H3
  iintro ⟨Hbd, H0, -, -, -, H3⟩
  rw [Pipeline.chain_nil, wp_pure]
  imodintro
  iapply Hk
  isplitl [Hl Hr H0]
  · isplitl [Hl]; · iexact Hl
    isplitl [Hr]; · iexact Hr
    iexact H0
  · unfold Zout outV
    rw [show [hostOps1 (F := F)].flatten = hostOps1 from by simp]
    iexact H3

/-! ### The run -/

-- the launch theorem's implicit arguments are found by unifying its conclusion with this one, which takes unfolding
-- plain definitions in a metavariable's type
set_option backward.isDefEq.respectTransparency.types false in
/-- At the compiled mesh, from any memory with zero counters: every weakly fair execution of @main on the TensorCores
    terminates, nothing faulting; the result's buffer ends at `outV` and the argument array as launched. -/
theorem run_main : θ_run defs (onTc (τ := τ) (main (F := F))) ⟨m, fun _ => 0, ρ⟩ (fun r => ∀ c : Dev nD,
      r.2.mem ((c.tc : Thread nD τ).loc main_v3) = outV m c
      ∧ r.2.mem ((c.tc : Thread nD τ).loc main_arg0) = m ((c.tc : Thread nD τ).loc main_arg0)) :=
  Pipeline.θ_run_region_noSem_pf_tail (pcfgs (F := F)) adm (dats m) () cellOf_inj 0 winFacts₀0 (Pipeline.PreFacts.none _) EP defs₀ Variants.none
    m ρ main (fun _ => Pipeline.chain ([hostOps1 (F := F)].map StableHlo.seq))
    (hbody := fun c => (body_obligation m c).loose) (hne := block_pos0) (harr := arr_whole0) (hstage := stage_whole0)
    (howed := fun _ _ => rfl) (u₀ := u₀) (hu₀ := Entails.of_eq (ownU_emb₁ _)) (V := V m)
    (hmain := Pipeline.hmain_around cfgs 0 defs₀ Variants.none m main [] [hostOps1] trivial trivial (fun c => (main_chain c).trans rfl))
    (hsplit := hsplit m) (hpf := fun _ k => k.elim0)
    (X := fun _ => iprop(emp)) (Y := fun _ => iprop(emp)) (Z := fun c => Pipeline.unscopedRest spec0 c (V m c)) (Z' := Zout m)
    (hX := fun c => by
      rw [Pipeline.unscopedRestP_none]
      iintro H; isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, -, Hr⟩; iexact Hr)
    (hout := fun c => by
      rw [show (dats m 0 c).Φ (Fin.last cfg0.N) = Pipeline.scopedRest (Ix := Unit) (Name := ℕ) (U := UR sig nD τ) (Lvl := ℕ) (Val := Elt F) spec0 c from rfl]
      iintro H; isplitr; · iempintro
      iexact H)
    (htail := htail m)
    (QY := fun c s => s.mem ((c.tc : Thread nD τ).loc main_v3) = outV m c)
    (hY := fun c s' => by
      unfold Zout
      iintro ⟨-, H3, HSI⟩
      icombine HSI H3 gives %h
      imodintro
      isplitr; · ipureintro; exact Buf.eq_of_forall_mem_univ h
      iexact HSI)
    (hQ := fun s h c => ⟨(h c).2.2, ((h c).1 0).trans ((dats m 0 c).arrAt_in 0 rfl _)⟩)

end Cert.Proof.KI

end
-- ==== Proof.Spec.lean ====
/-
  The mathematics of the certificate, stated once and free of either program.

  For a matrix `x` of 4096 rows of 1024 extended reals, the PAIR TERM of two rows `u`, `v` is
  `(1 - (u · v) / max (‖u‖ ‖v‖) ε) * [the pair counts]`, with `‖u‖ = √(Σ u²)`, `ε` the single-precision
  word nearest 1e-8 and `1` the single-precision one; the LOSS is the sum of the pair terms over the strictly
  upper triangle `p < q`, divided by the number of such pairs, 4096 · 4095 / 2 = 8386560 (exactly a single-precision
  number). Both programs compute this number: one over 512 × 512 tiles of the pair matrix, skipping the tiles
  below the diagonal, the other over the whole matrix at once.
-/
import Idealize.ShloMosaic.PureOps.Ideal

noncomputable section

namespace Cert.PairLoss

open Idealize.ShloMosaic

/-- The single-precision word nearest `1e-8`, as an extended real. -/
def eps : EReal := Ideal.ofBits .f32 0x322BCC77#32
/-- The single-precision `1.0`, as an extended real. -/
def one : EReal := Ideal.ofBits .f32 0x3F800000#32
/-- The single-precision `8386560.0`, the number of pairs `p < q` below 4096, as an extended real. -/
def pairs : EReal := Ideal.ofBits .f32 0x4AFFF000#32

/-- The Euclidean norm of a row. -/
def norm (u : Fin 1024 → EReal) : EReal := Ideal.sqrt (∑ k : Fin 1024, u k * u k)

/-- One entry of the masked pair matrix: `(1 - cos(u, v))` with the clamped denominator, kept when `keep`. -/
def pairTerm (u v : Fin 1024 → EReal) (keep : Prop) [Decidable keep] : EReal :=
  (one - Ideal.div (∑ k : Fin 1024, u k * v k) (max (norm u * norm v) eps)) * (if keep then (1 : EReal) else 0)

/-- The sum of the pair terms over the strictly upper triangle. -/
def upperSum (x : Fin 4096 → Fin 1024 → EReal) : EReal :=
  ∑ p : Fin 4096, ∑ q : Fin 4096, pairTerm (x p) (x q) (p.val < q.val)

/-- The loss: the mean of `1 - cos` over the pairs `p < q`. -/
def loss (x : Fin 4096 → Fin 1024 → EReal) : EReal := Ideal.div (upperSum x) pairs

/-- What one 512 × 512 tile `(i, j)` of the pair matrix contributes, from the tile's two row blocks `a` (rows
    `512 i + r`) and `b` (rows `512 j + c`). -/
def tileSum (i j : ℕ) (a b : Fin 512 → Fin 1024 → EReal) : EReal :=
  ∑ r : Fin 512, ∑ c : Fin 512, pairTerm (a r) (b c) (512 * i + r.val < 512 * j + c.val)

/-- Row block `i` of the matrix: its rows `512 i + r` (for `i < 8` no wrap-around occurs; the remainder only keeps
    the definition total). -/
def blockRows (x : Fin 4096 → Fin 1024 → EReal) (i : ℕ) : Fin 512 → Fin 1024 → EReal :=
  fun r => x ⟨(512 * i + r.val) % 4096, Nat.mod_lt _ (by norm_num)⟩

/-- The running total after grid point `t` of the 8 × 8 tile grid walked row by row (`t = 8 i + j`): it starts from
    zero at the first tile, adds the tile's contribution on and above the diagonal (`i ≤ j`), and is carried
    unchanged across the tiles below it. -/
def stepAcc (T : ℕ → ℕ → EReal) : ℕ → EReal
  | 0 => 0 + T 0 0
  | t + 1 => if (t + 1) / 8 ≤ (t + 1) % 8 then stepAcc T t + T ((t + 1) / 8) ((t + 1) % 8) else stepAcc T t

end Cert.PairLoss

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibColumnSum.lean ====
/-
  A sum down the rows of a matrix, read at one column.

  An [a, b] array of extended reals reduced by addition along axis 0 (its rows), from a zero initial value, holds at
  column l the finite sum over the a rows k of the entry (k, l). Stated with the operation's own proof arguments as
  variables, so that a printed reduction meets it in term mode whatever proofs it carries. Depends on no program.
-/
import Idealize.ShloMosaic.Lib.ValueIdx
import Idealize.ShloMosaic.PureOps.Ideal.Laws

noncomputable section

namespace Cert.Lib

open Idealize.ShloMosaic Idealize.ShloMosaic.ValueIdx

/-- The sum of column `l` of an [a, b] array over its `a` rows, from a zero initial value. -/
theorem column_sum {a b : ℕ} (v : FVec Ideal ⟨2, ![a, b]⟩ .f32) (h : (⟨2, ![a, b]⟩ : Shape).Reduces [0] ⟨1, ![b]⟩)
    (hφ : FKind.Formats .f32) (hacc : (0x00000000#32 : BitVec (FTy.f32).bits) = FKind.add.neutral .f32 hφ) (l : Fin b) :
    multiReduction .add [0] ⟨1, ![b]⟩ v 0x00000000#32 h hφ hacc (ix1 l) = ∑ k : Fin a, v (ix2 k l) :=
  (Ideal.multiReduction_add_single v 0x00000000#32 h hφ hacc (ix1 l)).trans
    (Finset.sum_congr rfl fun k _ => congrArg v (funext fun c => Fin.ext (by
      match c with
      | ⟨0, _⟩ => rfl
      | ⟨1, _⟩ => rfl)))

end Cert.Lib

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.TileValue.lean ====
/-
  The kernel's arithmetic at one tile of the pair matrix, on the extended reals.

  At tile (i, j) of the 8 × 8 grid the body holds two blocks of 512 rows of 1024 entries: a, the rows 512 i + r, and
  b, the rows 512 j + c. From them it forms the 512 × 512 matrix whose entry (r, c) is

      (1 - (a_r · b_c) / max (‖a_r‖ ‖b_c‖) ε) * [512 i + r < 512 j + c],

  sums each row of that matrix over its 512 lanes, sums the 512 row totals, and adds the single number so obtained
  to every one of the 128 lanes of the running accumulator. This file reads that chain entry by entry:

  * the mask: for i, j < 8 and r, c < 512 the words 512 i + r and 512 j + c stay below 2^31, so the signed 32-bit
    comparison is the comparison of the natural numbers, and the bit, widened and converted, is 1 or 0;
  * the norms: a row's squares summed along the row, then the square root, kept as a column and read at (r, 0);
  * the product against the transposed block: entry (r, c) is the inner product of row r of a with row c of b
    (narrowing the factors' format changes nothing on the extended reals);
  * the denominator: the column of a's norms spread across the columns times the row of b's norms spread down the
    rows, at (r, c), is ‖a_r‖ ‖b_c‖;
  * the two reductions: lanes first, then rows — the order of the double sum in `tileSum` — each from the zero
    word, which is the extended real 0.

  The result: every lane of the body's value is the accumulator's lane plus `tileSum i j a b`; and the value the
  first grid point stores is 0 everywhere.
-/
import proofs.«113013_j7284264534292_1_alg».proof.Proof.Spec
import proofs.«113013_j7284264534292_1_alg».proof.Proof.Gen.KernelIdeal.Skeleton
import proofs.«113013_j7284264534292_1_alg».proof.Proof.LibColumn
import proofs.«113013_j7284264534292_1_alg».proof.Proof.LibColumnSum
import proofs.«113013_j7284264534292_1_alg».proof.Proof.LibPlainDot
import Idealize.ShloMosaic.Lib.ValueLayout
import Idealize.ShloMosaic.Lib.Pipeline.Value
import Idealize.ShloMosaic.Lib.Affine

noncomputable section

open scoped BigOperators

namespace Cert.PairLoss.Tile

open Idealize.ShloMosaic Idealize.ShloMosaic.ValueIdx Cert.KernelIdeal

/-- A natural number below 2^31, as a 32-bit word read signed, is itself. -/
theorem toInt_ofNat_small (n : Nat) (h : n < 2147483648) : (BitVec.ofNat 32 n).toInt = (n : Int) := by
  rw [BitVec.toInt_eq_toNat_of_lt (by rw [BitVec.toNat_ofNat]; omega), BitVec.toNat_ofNat]
  omega

/-- The word 512 * t + r of a tile coordinate t < 8 and an in-tile coordinate r < 512, computed in 32-bit arithmetic. -/
theorem coord_word (t : Fin 8) (r : Fin 512) :
    IntOp.addi (Scalar.muli (BitVec.ofNat 32 t.val) 512#32) (BitVec.ofNat 32 r.val) = BitVec.ofNat 32 (512 * t.val + r.val) := by
  show BitVec.ofNat 32 t.val * 512#32 + BitVec.ofNat 32 r.val = _
  rw [show (512#32 : BitVec 32) = BitVec.ofNat 32 512 from rfl, ← BitVec.ofNat_mul, ← BitVec.ofNat_add, Nat.mul_comm]

/-- The comparison bit of entry (r, c) of tile (i, j): no word wraps, so the signed comparison of the two 32-bit
    words is the comparison of 512 i + r and 512 j + c as natural numbers. -/
theorem mask_word (i j : Fin 8) (r c : Fin 512) :
    IntOp.cmpi .slt (IntOp.addi (Scalar.muli (BitVec.ofNat 32 i.val) 512#32) (BitVec.ofNat 32 r.val))
        (IntOp.addi (Scalar.muli (BitVec.ofNat 32 j.val) 512#32) (BitVec.ofNat 32 c.val))
      = if 512 * i.val + r.val < 512 * j.val + c.val then 1#1 else 0#1 := by
  have hi := i.isLt; have hj := j.isLt; have hr := r.isLt; have hc := c.isLt
  rw [coord_word, coord_word]
  by_cases h : 512 * i.val + r.val < 512 * j.val + c.val
  · rw [if_pos h]
    refine IntOp.cmpi_slt.mpr ?_
    rw [toInt_ofNat_small _ (by omega), toInt_ofNat_small _ (by omega)]
    exact_mod_cast h
  · rw [if_neg h]
    refine eq_zero_of_ne_one fun h1 => h ?_
    have := IntOp.cmpi_slt.mp h1
    rw [toInt_ofNat_small _ (by omega), toInt_ofNat_small _ (by omega)] at this
    exact_mod_cast this

/-- That bit, zero-extended to 32 bits and converted as a signed integer, is the extended real 1 or 0. -/
theorem mask_float (i j : Fin 8) (r c : Fin 512) :
    FloatOps.sitofp (F := Ideal) .f32 ((IntOp.cmpi .slt (IntOp.addi (Scalar.muli (BitVec.ofNat 32 i.val) 512#32) (BitVec.ofNat 32 r.val))
        (IntOp.addi (Scalar.muli (BitVec.ofNat 32 j.val) 512#32) (BitVec.ofNat 32 c.val))).setWidth 32)
      = if 512 * i.val + r.val < 512 * j.val + c.val then (1 : EReal) else 0 := by
  rw [mask_word]
  by_cases h : 512 * i.val + r.val < 512 * j.val + c.val
  · rw [if_pos h, if_pos h]
    show ((((1#1 : BitVec 1).setWidth 32).toInt : ℝ) : EReal) = 1
    rw [show ((1#1 : BitVec 1).setWidth 32).toInt = 1 by decide]; norm_num
  · rw [if_neg h, if_neg h]
    show ((((0#1 : BitVec 1).setWidth 32).toInt : ℝ) : EReal) = 0
    rw [show ((0#1 : BitVec 1).setWidth 32).toInt = 0 by decide]; norm_num

/-- A sum along axis 1 of an [a, b] array from a zero accumulator, read at row r: the sum of the row's entries. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun c => Fin.ext (by
      match c with
      | ⟨0, _⟩ => rfl
      | ⟨1, _⟩ => rfl)))

/-- The norm column of a row block at (r, 0): the Euclidean norm of row r. -/
theorem norm_col (x : FVec Ideal S512x1024 .f32) (h : S512x1024.Reduces [1] S512)
    (hφ : FKind.Formats .f32) (hacc : (0x00000000#32 : BitVec (FTy.f32).bits) = FKind.add.neutral .f32 hφ)
    (hs : S512.ShapeCasts S512x1) (r : Fin 512) (u : Fin 1) :
    sqrt (shapeCast S512x1 (multiReduction .add [1] S512 (mulf x x) 0x00000000#32 h hφ hacc) hs) (ix2 r u)
      = norm (fun k => x (ix2 r k)) := by
  show Ideal.sqrt (shapeCast S512x1 (multiReduction .add [1] S512 (mulf x x) 0x00000000#32 h hφ hacc) hs (ix2 r u)) = Ideal.sqrt _
  refine congrArg Ideal.sqrt ?_
  refine (Cert.Column.shapeCast_a_a1_apply _ hs r u).trans ?_
  exact row_sum (mulf x x) h hφ hacc r

/-- The generated dimension numbers are those of a plain product. -/
theorem isPlain : Cert.PlainDot.IsPlain dot_S512x1024_S1024x512_S512x512_1_0_0_1_n_n := ⟨rfl, rfl, rfl, rfl, rfl, rfl⟩

/-- The product of block a with the transpose of block b, at (r, c): the inner product of row r of a with row c of b. -/
theorem prod_apply (x0 x1 : FVec Ideal S512x1024 .f32) (hb : FTy.bits .bf16 < FTy.bits .f32)
    (ht : S512x1024.Transposes [1, 0] S1024x512) (r c : Fin 512) :
    matmul dot_S512x1024_S1024x512_S512x512_1_0_0_1_n_n none (truncf .bf16 x0 hb)
        (transpose S1024x512 [1, 0] (truncf .bf16 x1 hb) ht) (constant S512x512 .f32 0x00000000#32) (ix2 r c)
      = ∑ k : Fin 1024, x0 (ix2 r k) * x1 (ix2 c k) := by
  refine (Cert.PlainDot.matmul_zero_apply isPlain none _ _ r c).trans ?_
  refine Finset.sum_congr rfl fun k _ => ?_
  exact congrArg (x0 (ix2 r k) * ·) (transpose_ix2_apply (truncf .bf16 x1 hb) ht k c)

/-- The denominator before clamping, at (r, c): the norm of row r times the norm of row c. -/
theorem den_apply (n0 n1 : FVec Ideal S512x1 .f32) (ht : S512x1.Transposes [1, 0] S1x512)
    (hb0 : S512x1.Broadcasts S512x512) (hb1 : S1x512.Broadcasts S512x512) (r c : Fin 512) :
    mulf (broadcastTo S512x512 n0 hb0) (broadcastTo S512x512 (transpose S1x512 [1, 0] n1 ht) hb1) (ix2 r c)
      = n0 (ix2 r (0 : Fin 1)) * n1 (ix2 c (0 : Fin 1)) := by
  show broadcastTo S512x512 n0 hb0 (ix2 r c) * broadcastTo S512x512 (transpose S1x512 [1, 0] n1 ht) hb1 (ix2 r c) = _
  rw [Cert.Column.broadcastTo_a1_ab_apply n0 hb0 r c, broadcastTo_1b_ab_apply _ hb1 r c, transpose_ix2_apply n1 ht (0 : Fin 1) c]

/-- One entry of the masked pair matrix of tile (i, j), at (r, c), from the product P and the unclamped
    denominator D at that entry: the pair term of the two rows, kept when 512 i + r < 512 j + c. -/
theorem entry_apply (i j : Fin 8) (u v : Fin 1024 → EReal) (P D : FVec Ideal S512x512 .f32) (r c : Fin 512)
    (hP : P (ix2 r c) = ∑ k : Fin 1024, u k * v k) (hD : D (ix2 r c) = norm u * norm v)
    (h0 : S512x512.Iotas .tc 32 [0]) (h1 : S512x512.Iotas .tc 32 [1]) (hlt : 1 < 32) :
    mulf (subf (broadcast S512x512 (Scalar.ofBits (F := Ideal) .f32 0x3F800000#32))
          (divf P (maximumf D (broadcast S512x512 (Scalar.ofBits (F := Ideal) .f32 0x322BCC77#32)))))
        (sitofp .f32 (extui 32 (cmpi .slt
          (addi (broadcast S512x512 (Scalar.muli (BitVec.ofNat 32 i.val) 512#32)) (iota .tc S512x512 32 [0] h0))
          (addi (broadcast S512x512 (Scalar.muli (BitVec.ofNat 32 j.val) 512#32)) (iota .tc S512x512 32 [1] h1))) hlt))
        (ix2 r c)
      = pairTerm u v (512 * i.val + r.val < 512 * j.val + c.val) := by
  show (Ideal.ofBits .f32 0x3F800000#32 - Ideal.div (P (ix2 r c)) (max (D (ix2 r c)) (Ideal.ofBits .f32 0x322BCC77#32)))
      * FloatOps.sitofp (F := Ideal) .f32 ((IntOp.cmpi .slt
          (IntOp.addi (Scalar.muli (BitVec.ofNat 32 i.val) 512#32) (iota .tc S512x512 32 [0] h0 (ix2 r c)))
          (IntOp.addi (Scalar.muli (BitVec.ofNat 32 j.val) 512#32) (iota .tc S512x512 32 [1] h1 (ix2 r c)))).setWidth 32) = _
  rw [hP, hD, iota_single_apply, iota_single_apply]
  exact congrArg (_ * ·) (mask_float i j r c)

/-- The tile's total added to the accumulator: each row's lanes summed, then the rows, the total spread over the
    128 lanes and added to the running value. -/
theorem tail_apply (acc : FVec Ideal S1x128 .f32) (m : FVec Ideal S512x512 .f32)
    (hr1 : S512x512.Reduces [1] S512) (hφ1 : FKind.Formats .f32)
    (hacc1 : (0x00000000#32 : BitVec (FTy.f32).bits) = FKind.add.neutral .f32 hφ1)
    (hs1 : S512.ShapeCasts S512x1) (hr0 : S512x1.Reduces [0] S1) (hφ0 : FKind.Formats .f32)
    (hacc0 : (0x00000000#32 : BitVec (FTy.f32).bits) = FKind.add.neutral .f32 hφ0) (hs2 : S1.ShapeCasts S1x1)
    (hs3 : S1x128.ShapeCasts S1x128) (hs4 : S1x1.ShapeCasts S1x1) (hb : S1x1.Broadcasts S1x128) (l : Fin 128) :
    addf (shapeCast S1x128 acc hs3)
        (broadcastTo S1x128 (shapeCast S1x1 (shapeCast S1x1 (multiReduction .add [0] S1
          (shapeCast S512x1 (multiReduction .add [1] S512 m 0x00000000#32 hr1 hφ1 hacc1) hs1) 0x00000000#32 hr0 hφ0 hacc0) hs2) hs4) hb)
        (ix2 (0 : Fin 1) l)
      = acc (ix2 (0 : Fin 1) l) + ∑ r : Fin 512, ∑ c : Fin 512, m (ix2 r c) := by
  rw [shapeCast_self acc hs3, shapeCast_self _ hs4]
  show acc (ix2 (0 : Fin 1) l) + broadcastTo S1x128 _ hb (ix2 (0 : Fin 1) l) = _
  refine congrArg (acc (ix2 (0 : Fin 1) l) + ·) ?_
  refine (Cert.Column.broadcastTo_a1_ab_apply _ hb (0 : Fin 1) l).trans ?_
  refine (shapeCast_a_1a_apply _ hs2 (0 : Fin 1) (0 : Fin 1)).trans ?_
  refine (Cert.Lib.column_sum _ hr0 hφ0 hacc0 (0 : Fin 1)).trans ?_
  refine Finset.sum_congr rfl fun r _ => ?_
  refine (Cert.Column.shapeCast_a_a1_apply _ hs1 r (0 : Fin 1)).trans ?_
  exact row_sum m hr1 hφ1 hacc1 r

/-- The first grid point's store: the zero splat. -/
theorem pay1_apply (y : S1x128.Idx) : Gen.k0_pay1 (F := Ideal) y = 0 := by
  unfold Gen.k0_pay1
  exact Ideal.ofBits_zero_f32

/-- THE BODY'S ARITHMETIC AT TILE (i, j): every lane of the accumulator gains the tile's sum of pair terms. -/
theorem pay2_apply (i j : Fin 8) (x0 x1 : Vec Ideal S512x1024 .f32) (acc : Vec Ideal S1x128 .f32) (l : Fin 128) :
    Gen.k0_pay2 (F := Ideal) (BitVec.ofNat 32 i.val) (BitVec.ofNat 32 j.val) x0 x1 acc (ix2 (0 : Fin 1) l)
      = acc (ix2 (0 : Fin 1) l) + tileSum i.val j.val (fun r k => x0 (ix2 r k)) (fun c k => x1 (ix2 c k)) := by
  unfold Gen.k0_pay2
  refine (tail_apply acc _ _ _ _ _ _ _ _ _ _ _ _ l).trans ?_
  refine congrArg (acc (ix2 (0 : Fin 1) l) + ·) ?_
  unfold tileSum
  refine Finset.sum_congr rfl fun r _ => Finset.sum_congr rfl fun c _ => ?_
  exact entry_apply i j _ _ _ _ r c (prod_apply x0 x1 _ _ r c)
    ((den_apply _ _ _ _ _ r c).trans
      (congrArg₂ (· * ·) (norm_col x0 _ _ _ _ r (0 : Fin 1)) (norm_col x1 _ _ _ _ c (0 : Fin 1)))) _ _ _

end Cert.PairLoss.Tile
end
-- ==== Proof.TileAlgebra.lean ====
/-
  Pure algebra on the extended reals: walking the 8 × 8 grid of 512 × 512 tiles row by row and adding only the
  tiles on and above the diagonal gives the sum of the pair terms over the whole strictly upper triangle.

  Two facts carry it. A tile strictly below the diagonal holds no kept pair, so every one of its terms is a
  product with zero and the tile contributes nothing; the walk therefore equals the sum over all 64 tiles. And
  `p = 512 i + r` is a bijection between (block, row in block) and the 4096 rows, so the sum over all tiles of the
  tile sums is the sum over all pairs of rows. Only commutativity and associativity of `+`, `0 + a = a` and
  `a * 0 = 0` are used.
-/
import Mathlib.Algebra.BigOperators.Fin
import Mathlib.Logic.Equiv.Fin.Basic
import proofs.«113013_j7284264534292_1_alg».proof.Proof.Spec

noncomputable section

namespace Cert.PairLoss

open Idealize.ShloMosaic

/-- A pair that is not kept contributes zero. -/
theorem pairTerm_of_not (u v : Fin 1024 → EReal) {keep : Prop} [Decidable keep] (h : ¬ keep) :
    pairTerm u v keep = 0 := by
  unfold pairTerm
  rw [if_neg h, mul_zero]

/-- The pair term depends on the keep-condition only through its truth value. -/
theorem pairTerm_congr (u v : Fin 1024 → EReal) {k k' : Prop} [Decidable k] [Decidable k'] (h : k ↔ k') :
    pairTerm u v k = pairTerm u v k' := by
  unfold pairTerm
  by_cases hk : k
  · rw [if_pos hk, if_pos (h.mp hk)]
  · rw [if_neg hk, if_neg (fun hk' => hk (h.mpr hk'))]

/-- A tile strictly below the diagonal contributes zero: none of its pairs is kept. -/
theorem tileSum_below {i j : ℕ} (h : j < i) (a b : Fin 512 → Fin 1024 → EReal) : tileSum i j a b = 0 := by
  unfold tileSum
  refine Finset.sum_eq_zero fun r _ => Finset.sum_eq_zero fun c _ => ?_
  apply pairTerm_of_not
  have hr := r.isLt
  have hc := c.isLt
  omega

/-- When the tiles below the diagonal vanish, the running total after grid point `t` is the plain sum of the
    tiles at the points `0, …, t`. -/
theorem stepAcc_eq_sum (T : ℕ → ℕ → EReal) (hT : ∀ i j, j < i → T i j = 0) (t : ℕ) :
    stepAcc T t = ∑ s ∈ Finset.range (t + 1), T (s / 8) (s % 8) := by
  induction t with
  | zero =>
    rw [Finset.sum_range_one]
    show 0 + T 0 0 = T (0 / 8) (0 % 8)
    rw [zero_add]
  | succ t ih =>
    rw [Finset.sum_range_succ _ (t + 1), ← ih]
    show (if (t + 1) / 8 ≤ (t + 1) % 8 then stepAcc T t + T ((t + 1) / 8) ((t + 1) % 8) else stepAcc T t) = _
    by_cases hle : (t + 1) / 8 ≤ (t + 1) % 8
    · rw [if_pos hle]
    · rw [if_neg hle, hT _ _ (Nat.lt_of_not_le hle), add_zero]

/-- A sum over the points `s < m n` of a function of the quotient and remainder of `s` by `n` is the double sum
    over quotient and remainder. -/
theorem sum_range_divMod {M : Type*} [AddCommMonoid M] (m n : ℕ) (f : ℕ → ℕ → M) :
    ∑ s ∈ Finset.range (m * n), f (s / n) (s % n) = ∑ i : Fin m, ∑ j : Fin n, f i.val j.val := by
  rw [Finset.sum_range (fun s => f (s / n) (s % n)), ← Fintype.sum_prod_type',
    ← (finProdFinEquiv (m := m) (n := n)).sum_comp]
  refine Finset.sum_congr rfl fun x _ => ?_
  obtain ⟨i, j⟩ := x
  have hj := j.isLt
  have hn : 0 < n := by omega
  have h1 : (j.val + n * i.val) / n = i.val := by
    rw [Nat.add_mul_div_left _ _ hn, Nat.div_eq_of_lt hj, zero_add]
  have h2 : (j.val + n * i.val) % n = j.val := by
    rw [Nat.add_mul_mod_self_left, Nat.mod_eq_of_lt hj]
  show f ((j.val + n * i.val) / n) ((j.val + n * i.val) % n) = f i.val j.val
  rw [h1, h2]

/-- A sum over the 4096 rows, taken block by block: row `512 i + r` is row `r` of block `i`. -/
theorem sum_rows_blocks {M : Type*} [AddCommMonoid M] (g : Fin 4096 → M) :
    ∑ p : Fin 4096, g p
      = ∑ i : Fin 8, ∑ r : Fin 512, g ⟨512 * i.val + r.val, by have := i.isLt; have := r.isLt; omega⟩ := by
  rw [← Fintype.sum_prod_type', ← (finProdFinEquiv (m := 8) (n := 512)).sum_comp]
  refine Finset.sum_congr rfl fun x _ => ?_
  obtain ⟨i, r⟩ := x
  congr 1
  apply Fin.ext
  show r.val + 512 * i.val = 512 * i.val + r.val
  omega

/-- Inside the matrix a row block reads the rows `512 i + r` themselves. -/
theorem blockRows_apply (x : Fin 4096 → Fin 1024 → EReal) (i : Fin 8) (r : Fin 512) :
    blockRows x i.val r
      = x ⟨512 * i.val + r.val, by have := i.isLt; have := r.isLt; omega⟩ := by
  unfold blockRows
  congr 1
  apply Fin.ext
  show (512 * i.val + r.val) % 4096 = 512 * i.val + r.val
  apply Nat.mod_eq_of_lt
  have := i.isLt
  have := r.isLt
  omega

/-- The sum over the strictly upper triangle, taken tile by tile over all 64 tiles. -/
theorem upperSum_tiles (x : Fin 4096 → Fin 1024 → EReal) :
    upperSum x
      = ∑ i : Fin 8, ∑ j : Fin 8, tileSum i.val j.val (blockRows x i.val) (blockRows x j.val) := by
  unfold upperSum tileSum
  rw [sum_rows_blocks (fun p => ∑ q : Fin 4096, pairTerm (x p) (x q) (p.val < q.val))]
  refine Finset.sum_congr rfl fun i _ => ?_
  rw [Finset.sum_comm (β := EReal) (s := (Finset.univ : Finset (Fin 8))) (t := (Finset.univ : Finset (Fin 512)))]
  refine Finset.sum_congr rfl fun r _ => ?_
  rw [sum_rows_blocks (fun q : Fin 4096 => pairTerm
    (x ⟨512 * i.val + r.val, by have := i.isLt; have := r.isLt; omega⟩) (x q) (512 * i.val + r.val < q.val))]
  refine Finset.sum_congr rfl fun j _ => ?_
  refine Finset.sum_congr rfl fun c _ => ?_
  rw [blockRows_apply, blockRows_apply]

/-- The running total after the last of the 64 grid points is the sum over the strictly upper triangle. -/
theorem stepAcc_last (x : Fin 4096 → Fin 1024 → EReal) :
    stepAcc (fun i j => tileSum i j (blockRows x i) (blockRows x j)) 63 = upperSum x := by
  rw [stepAcc_eq_sum _ (fun i j h => tileSum_below h _ _) 63, upperSum_tiles]
  exact sum_range_divMod 8 8 (fun i j => tileSum i j (blockRows x i) (blockRows x j))

end Cert.PairLoss

end
-- ==== Proof.KIValue.lean ====
/-
  The value of the idealized kernel's run: the program's result is the loss of the specification.

  Read at the ideal floats, the total after grid point `t = 8 i + j` is, in every one of its 128 lanes, the
  specification's running total `stepAcc` over the tile sums of the input's row blocks: the first point stores zero
  plus tile (0, 0), an accumulating point adds tile (i, j) — the body's arithmetic at a point is the tile sum of the
  two row blocks it is handed, which are rows `512 i + r` and `512 j + c` of the input —, and a point below the
  diagonal carries the total over. The one write-back, after the last point, covers the whole 1 × 128 array; the
  host lines take its entry [0, 0] and divide by the number of pairs. The walk over the tiles on and above the
  diagonal is the sum over the strictly upper triangle (the algebra module), so the result is the loss.
-/
import proofs.«113013_j7284264534292_1_alg».proof.Proof.KIRun
import proofs.«113013_j7284264534292_1_alg».proof.Proof.TileValue
import proofs.«113013_j7284264534292_1_alg».proof.Proof.TileAlgebra
import Idealize.ShloMosaic.Lib.Pipeline.Value
import Idealize.ShloMosaic.Lib.ValueIdx
import Idealize.ShloMosaic.Lib.IdealHost

noncomputable section

namespace Cert.Proof.KI

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.PairLoss

/-! ## The values the runs left, over the body's one arithmetic term -/

theorem hz : (![0, 0] : Fin 2 → Nat) = fun _ => 0 := funext fun a => by fin_cases a <;> rfl

section AnyFloats
variable {F : FTy → Type} [FloatOps F]

/-- An accumulating point leaves the body's term of the two row blocks and the total it found. -/
theorem stepv_eq (i : grid0.Coords) (x0 x1 : Vec F S512x1024 .f32) (a : Vec F S1x128 .f32) :
    stepv i x0 x1 a = k0_pay2 (wI i) (wJ i) x0 x1 a := by
  unfold stepv
  rw [View.canon_unit_zero hz]
  simp only [View.ld_unit_zero (S := S512x1024) hz, View.ld_unit_zero (S := S1x128) hz]

/-- The first point leaves the body's term of the two row blocks and the zeros it had just stored. -/
theorem firstv_eq (i : grid0.Coords) (M2 : Memref sig .tc .vmem S1x128 .f32) (x0 x1 : Vec F S512x1024 .f32) :
    firstv i M2 x0 x1 = k0_pay2 (wI i) (wJ i) x0 x1 k0_pay1 := by
  unfold firstv
  rw [View.canon_cons_unit_zero hz, View.readCov_unit_zero _ hz]
  simp only [View.ld_unit_zero (S := S512x1024) hz]

end AnyFloats

/-! ## The grid and the blocks -/

/-- Point `t` of the grid is tile `(t / 8, t % 8)`. -/
theorem coords_facts : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The printed index maps, decided over the grid: the first window's block row is the tile's row, the second's the
    tile's column, the total's block is the whole array. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = 0 :=
  (by decide +kernel : ∀ t : Fin grid0.N, _)

variable (m : (ℓ : Loc nD τ sig) → Buf (Elt Ideal) ℓ)

/-- The input as a matrix of extended reals. -/
abbrev xOf (c : Dev nD) : Fin 4096 → Fin 1024 → EReal := fun p k => m ((c : Thread nD τ).loc main_arg0) (ix2 p k)

/-- The first window's block at point `t` is row block `t / 8` of the input; -/
theorem iblk0_rows (c : Dev nD) (t : Fin cfg0.N) :
    (fun (r : Fin 512) (k : Fin 1024) => iblk m c 0 t (ix2 r k)) = blockRows (xOf m c) (t.val / 8) := by
  obtain ⟨e0, e1, -, -, -, -⟩ := idx_facts t
  have hN : t.val < 64 := lt_of_lt_of_eq t.isLt N_64
  funext r k
  show V m c main_arg0 (((cfg0.win 0).blk t).view.emb (ix2 r k)) = m ((c : Thread nD τ).loc main_arg0) (ix2 _ k)
  refine congrArg _ (funext fun a => Fin.ext ?_)
  match a with
  | ⟨0, _⟩ =>
    show win0_0.index t (0 : Fin 2) * 512 + 1 * r.val = (512 * (t.val / 8) + r.val) % 4096
    have hr : r.val < 512 := r.isLt
    rw [Nat.mod_eq_of_lt (by omega)]; omega
  | ⟨1, _⟩ =>
    show win0_0.index t (1 : Fin 2) * 1024 + 1 * k.val = k.val
    omega

/-- the second window's is row block `t % 8`. -/
theorem iblk1_rows (c : Dev nD) (t : Fin cfg0.N) :
    (fun (r : Fin 512) (k : Fin 1024) => iblk m c 1 t (ix2 r k)) = blockRows (xOf m c) (t.val % 8) := by
  obtain ⟨-, -, e2, e3, -, -⟩ := idx_facts t
  funext r k
  show V m c main_arg0 (((cfg0.win 1).blk t).view.emb (ix2 r k)) = m ((c : Thread nD τ).loc main_arg0) (ix2 _ k)
  refine congrArg _ (funext fun a => Fin.ext ?_)
  match a with
  | ⟨0, _⟩ =>
    show win0_1.index t (0 : Fin 2) * 512 + 1 * r.val = (512 * (t.val % 8) + r.val) % 4096
    have hr : r.val < 512 := r.isLt
    rw [Nat.mod_eq_of_lt (by omega)]; omega
  | ⟨1, _⟩ =>
    show win0_1.index t (1 : Fin 2) * 1024 + 1 * k.val = k.val
    omega

/-! ## The running total is the specification's -/

/-- The tile sums of the input's row blocks. -/
abbrev tiles (c : Dev nD) : ℕ → ℕ → EReal := fun i j => tileSum i j (blockRows (xOf m c) i) (blockRows (xOf m c) j)

/-- The body's term at point `t`, in any lane: the total it found plus tile `(t / 8, t % 8)`. -/
theorem step_apply (c : Dev nD) (t : Fin cfg0.N) (a : Vec Ideal S1x128 .f32) (l : Fin 128) :
    k0_pay2 (F := Ideal) (wI (grid0.coords t)) (wJ (grid0.coords t)) (iblk m c 0 t) (iblk m c 1 t) a (ix2 (0 : Fin 1) l)
      = a (ix2 (0 : Fin 1) l) + tiles m c (t.val / 8) (t.val % 8) := by
  obtain ⟨c0, c1⟩ := coords_facts t
  have hN : t.val < 64 := lt_of_lt_of_eq t.isLt N_64
  have hI : wI (grid0.coords t) = BitVec.ofNat 32 (⟨t.val / 8, by omega⟩ : Fin 8).val := congrArg (BitVec.ofNat 32) c0
  have hJ : wJ (grid0.coords t) = BitVec.ofNat 32 (⟨t.val % 8, by omega⟩ : Fin 8).val := congrArg (BitVec.ofNat 32) c1
  rw [hI, hJ, Cert.PairLoss.Tile.pay2_apply, iblk0_rows, iblk1_rows]

/-- In every lane the total after point `k` is the specification's running total over the tiles. -/
theorem accA_apply (c : Dev nD) : ∀ (k : ℕ) (hk : k < cfg0.N) (l : Fin 128),
    accA (F := Ideal) m c k hk (ix2 (0 : Fin 1) l) = stepAcc (tiles m c) k
  | 0, hk, l => by
    show firstv (grid0.coords ⟨0, hk⟩) (ms2 ⟨0, hk⟩) (iblk m c 0 ⟨0, hk⟩) (iblk m c 1 ⟨0, hk⟩) (ix2 (0 : Fin 1) l) = 0 + tiles m c 0 0
    rw [firstv_eq, step_apply m c ⟨0, hk⟩, Cert.PairLoss.Tile.pay1_apply]
    show 0 + tiles m c (0 / 8) (0 % 8) = 0 + tiles m c 0 0
    simp only [Nat.zero_div, Nat.zero_mod]
  | k + 1, hk, l => by
    show (if k0_cond2 (grid0.coords ⟨k + 1, hk⟩) = 1#1 then
        stepv (grid0.coords ⟨k + 1, hk⟩) (iblk m c 0 ⟨k + 1, hk⟩) (iblk m c 1 ⟨k + 1, hk⟩) (accA m c k (Nat.lt_of_succ_lt hk))
      else accA m c k (Nat.lt_of_succ_lt hk)) (ix2 (0 : Fin 1) l)
      = if (k + 1) / 8 ≤ (k + 1) % 8 then stepAcc (tiles m c) k + tiles m c ((k + 1) / 8) ((k + 1) % 8) else stepAcc (tiles m c) k
    by_cases h2 : k0_cond2 (grid0.coords ⟨k + 1, hk⟩) = 1#1
    · rw [if_pos h2, if_pos ((cond2_iff ⟨k + 1, hk⟩).mp h2), stepv_eq, step_apply m c ⟨k + 1, hk⟩, accA_apply c k]
    · rw [if_neg h2, if_neg (fun h => h2 ((cond2_iff ⟨k + 1, hk⟩).mpr h)), accA_apply c k]

/-! ## The array the pipeline wrote back, and the host lines -/

theorem lt_N (k : ℕ) (h : k < 64) : k < cfg0.N := lt_of_lt_of_eq h N_64.symm
theorem lt63 : 63 < cfg0.N := lt_N 63 (by omega)

/-- Every index of the total's 1 × 128 array lies in the total's block at any point: the block is the whole array. -/
theorem mem_blk2 (t : Fin cfg0.N) (i : S1x128.Idx) : i ∈ ((cfg0.win 2).blk t).view.set := by
  obtain ⟨-, -, -, -, e4, e5⟩ := idx_facts t
  show i ∈ ((View.whole main_v0).slice (win0_2.rect t)).set
  rw [View.set_slice_whole, Rect.mem_set_unit]
  intro a
  match a with
  | ⟨0, _⟩ =>
    show win0_2.index t (0 : Fin 2) * 1 ≤ (i 0).val ∧ (i 0).val < win0_2.index t (0 : Fin 2) * 1 + 1
    have h0 : (i 0).val < 1 := (i 0).isLt
    omega
  | ⟨1, _⟩ =>
    show win0_2.index t (1 : Fin 2) * 128 ≤ (i 1).val ∧ (i 1).val < win0_2.index t (1 : Fin 2) * 128 + 128
    have h1 : (i 1).val < 128 := (i 1).isLt
    omega

/-- What a write-back of the total's block writes is the block read through the window's view of the array: the
    block is the whole array, at offset zero. -/
theorem cut_eq_read (t : Fin cfg0.N) (X : Vec Ideal S1x128 .f32) :
    (cfg0.win 2).cut (grid0.coords t) X = ((cfg0.win 2).blk t).view.read (Elt Ideal) X := by
  obtain ⟨-, -, -, -, e4, e5⟩ := idx_facts t
  funext j
  show X ((cfg0.win 2).xinj (grid0.coords t) j) = X (((cfg0.win 2).blk t).view.emb j)
  refine congrArg X (funext fun a => Fin.ext ?_)
  match a with
  | ⟨0, _⟩ => show (j 0).val = win0_2.index t (0 : Fin 2) * 1 + 1 * (j 0).val; omega
  | ⟨1, _⟩ => show (j 1).val = win0_2.index t (1 : Fin 2) * 128 + 1 * (j 1).val; omega

/-- The total after a point depends on the point's number only. -/
theorem accA_congr (c : Dev nD) (k k' : ℕ) (hk : k < cfg0.N) (hk' : k' < cfg0.N) (h : k = k') :
    accA (F := Ideal) m c k hk = accA (F := Ideal) m c k' hk' := by
  subst h; rfl

/-- The total's array after the run holds, in every lane, the total after the last point: the one write-back covers
    the whole array. -/
theorem final_total (c : Dev nD) :
    (dats (F := Ideal) m 0 c).arrAt 2 cfg0.N = accA (F := Ideal) m c 63 (lt63) := by
  refine (dats (F := Ideal) m 0 c).arrAt_eq_of_cover 2 _ (fun t hf => ?_) (fun i => ?_)
  · have h63 : t.val = 63 := by
      have h1 := (flush0_2 t).mp hf
      have h2 : t.val < 64 := lt_of_lt_of_eq t.isLt N_64
      omega
    show (cfg0.win 2).cut (grid0.coords t) ((dats m 0 c).after 2 t) = _
    rw [after_2, cut_eq_read, accA_congr m c t.val 63 t.isLt lt63 h63]
  · exact ⟨⟨63, lt63⟩, (flush0_2 _).mpr (by decide), mem_blk2 _ i⟩

/-- The host lines: entry [0, 0] of the total's array, divided by the number of pairs. -/
theorem outV_eq (c : Dev nD) :
    outV (F := Ideal) m c = fun _ => Ideal.div ((dats (F := Ideal) m 0 c).arrAt 2 cfg0.N (ix2 (0 : Fin 1) (0 : Fin 128))) pairs := by
  unfold outV
  show StableHlo.after hostOps1 (Wt m c) (Proc.devRef .tc main_v3) = _
  after_results
  funext i
  show Ideal.div (shapeCast S_ (extractStridedSlice S1x1 ![0, 0] (Wt m c main_v0) slices_S1x128_S1x1_0_0) shapeCasts_S1x1_S_ i)
      (Ideal.ofBits .f32 0x4AFFF000#32) = Ideal.div _ pairs
  rw [Wt_v0]
  refine congrArg (fun z => Ideal.div z pairs) ?_
  refine (shapeCast_apply _ _ i (ix2 (0 : Fin 1) (0 : Fin 1)) ?_).trans ?_
  · have h1 : ((⟨2, ![1, 1]⟩ : Shape).rowMajor (ix2 (0 : Fin 1) (0 : Fin 1))).val < 1 := Fin.isLt _
    have h2 : ((⟨0, ![]⟩ : Shape).rowMajor i).val < 1 := Fin.isLt _
    exact (Nat.lt_one_iff.mp h1).trans (Nat.lt_one_iff.mp h2).symm
  · exact extractStridedSlice_apply _ _ _ _ (ix2 (0 : Fin 1) (0 : Fin 128)) fun a => by
      match a with
      | ⟨0, _⟩ => rfl
      | ⟨1, _⟩ => rfl

/-- THE RESULT: the program's result buffer holds the loss of the input. -/
theorem outV_loss (c : Dev nD) : outV (F := Ideal) m c = fun _ => loss (xOf m c) := by
  rw [outV_eq, final_total, accA_apply]
  funext _
  unfold loss
  rw [stepAcc_last]

end Cert.Proof.KI

end
-- ==== Proof.RefLoss.lean ====
/-
  The whole-matrix program computes the loss of `Spec`.

  Stage by stage, each entry of the 4096 × 4096 pair matrix is read from the argument array: a row's norm is the
  square root of its sum of squares; the product against the transpose at `(p, q)` is the inner product of rows
  `p` and `q`; the denominator is the larger of the two norms' product and `ε`; the triangular mask compares the row
  and column numbers as signed 32-bit words, which below 4096 are the numbers themselves, so it is one exactly when
  `p < q`. The sum over both axes of the masked matrix, re-indexed by coordinates, is then the sum of the pair terms
  over the strictly upper triangle, and its quotient by the number of pairs is the loss.
-/
import proofs.«113013_j7284264534292_1_alg».proof.Proof.Spec
import proofs.«113013_j7284264534292_1_alg».proof.Proof.Gen.ReferenceIdeal.Run
import proofs.«113013_j7284264534292_1_alg».proof.Proof.Gen.ReferenceIdeal.Read
import Idealize.ShloMosaic.Lib.IdealHost

noncomputable section

namespace Cert.PairLoss.Ref

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The argument array of the reference: 4096 rows of 1024 extended reals. -/
abbrev Arr := (⟨S4096x1024, .f32⟩ : BufTy).Contents (Elt Ideal)

/-- The comparison of the mask, on row and column numbers below 4096: as signed 32-bit words they are their own
    values, so `row + 0 ≥ col` holds exactly when `col ≤ row`. -/
theorem sge_small (a b : ℕ) (ha : a < 4096) (hb : b < 4096) :
    IntOp.cmpi .sge (IntOp.addi (BitVec.ofNat 32 a) 0#32) (BitVec.ofNat 32 b) = if b ≤ a then 1#1 else 0#1 := by
  have hA : (BitVec.ofNat 32 a).toInt = (a : Int) := by
    rw [BitVec.toInt_eq_toNat_cond, BitVec.toNat_ofNat]
    have : a % 2 ^ 32 = a := Nat.mod_eq_of_lt (by omega)
    rw [this, if_pos (by omega)]
  have hB : (BitVec.ofNat 32 b).toInt = (b : Int) := by
    rw [BitVec.toInt_eq_toNat_cond, BitVec.toNat_ofNat]
    have : b % 2 ^ 32 = b := Nat.mod_eq_of_lt (by omega)
    rw [this, if_pos (by omega)]
  simp only [IntOp.cmpi, IntOp.addi, BitVec.add_zero, BitVec.sle, hA, hB]
  by_cases h : b ≤ a
  · rw [if_pos h, decide_eq_true (by exact_mod_cast h)]; rfl
  · rw [if_neg h, decide_eq_false (by exact_mod_cast h)]; rfl

/-- The norm stage at row `i`: the square root of the row's sum of squares (the sum starts from the zero word). -/
theorem norm_at (A : Arr) (i : S4096.Idx) :
    val_main_v0 (F := Ideal) A i = norm (fun k => A (ix2 (i 0) k)) := by
  have e : ∀ k : Fin 1024, idx_main_call0_v1 i k = ix2 (i 0) k := fun k =>
    funext fun a => by match a with | ⟨0, _⟩ => rfl | ⟨1, _⟩ => rfl
  rw [val_main_v0_apply, val_main_call0_v1_apply, val_main_call0_cst_apply]
  simp only [val_main_call0_v0_apply, e, Ideal.hostUnary_sqrt_def, Ideal.mulf_def, Ideal.ofBits_def,
    Ideal.ofBits_zero_f32, zero_add]
  rfl

/-- The product against the transpose at `(p, q)`: the inner product of rows `p` and `q`. -/
theorem dots_at (A : Arr) (j : S4096x4096.Idx) :
    val_main_v2 (F := Ideal) A j = ∑ k : Fin 1024, A (ix2 (j 0) k) * A (ix2 (j 1) k) := by
  rw [val_main_v2_apply]
  refine Finset.sum_congr rfl fun k _ => ?_
  rw [val_main_v1_apply]
  have el : lidx_main_v2 j k = ix2 (j 0) k :=
    funext fun a => by match a with | ⟨0, _⟩ => rfl | ⟨1, _⟩ => rfl
  have er : idx_main_v1 (ridx_main_v2 j k) = ix2 (j 1) k :=
    funext fun a => by match a with | ⟨0, _⟩ => rfl | ⟨1, _⟩ => rfl
  rw [el, er]
  rfl

/-- The clamped denominator at `(p, q)`: the larger of the product of the two rows' norms and `ε`. -/
theorem denom_at (A : Arr) (j : S4096x4096.Idx) :
    val_main_v9 (F := Ideal) A j
      = max (norm (fun k => A (ix2 (j 0) k)) * norm (fun k => A (ix2 (j 1) k))) eps := by
  rw [val_main_v9_apply, val_main_v7_apply, val_main_v5_apply, val_main_v3_apply, val_main_v6_apply,
    val_main_v4_apply, val_main_v8_apply, val_main_cst_apply, norm_at, norm_at]
  rfl

/-- The mask at `(p, q)`: one strictly above the diagonal, zero on and below it. -/
theorem mask_at (j : S4096x4096.Idx) :
    val_main_v12 (F := Ideal) j = if (j 0).val < (j 1).val then (1 : EReal) else 0 := by
  rw [val_main_v12_apply, val_main_call1_v4_apply, val_main_call1_v2_apply, val_main_call1_v0_apply,
    val_main_call1_v1_apply, val_main_call1_c_apply, val_main_call1_v3_apply, val_main_call1_v5_apply,
    val_main_call1_cst_apply, val_main_v11_apply, val_main_cst_0_apply,
    sge_small _ _ (idx2_lt0 j) (idx2_lt1 j)]
  by_cases h : (j 1).val ≤ (j 0).val
  · rw [if_pos h, select_one, if_neg (Nat.not_lt.mpr h)]
    exact Ideal.ofBits_zero_f32
  · rw [if_neg h, select_zero, if_pos (Nat.lt_of_not_le h)]
    exact Ideal.ofBits_one_f32

/-- The sum over the whole pair matrix is the sum of the pair terms over the strictly upper triangle. -/
theorem total_at (A : Arr) (i : S_.Idx) :
    val_main_v16 (F := Ideal) A i = upperSum (fun p k => A (ix2 p k)) := by
  rw [val_main_v16_apply, val_main_cst_2_apply, sum_idx2]
  simp only [Ideal.ofBits_def, Ideal.ofBits_zero_f32, zero_add]
  unfold upperSum
  refine Finset.sum_congr rfl fun p _ => Finset.sum_congr rfl fun q _ => ?_
  rw [val_main_v15_apply, val_main_v14_apply, val_main_v13_apply, val_main_cst_1_apply, val_main_v10_apply,
    dots_at, denom_at, mask_at]
  rfl

/-- THE REFERENCE IS THE LOSS: its last stage, as a function of the argument array, is the mean of `1 - cos` over
    the pairs `p < q` of rows. -/
theorem ref_loss (A : Arr) :
    val_main_v17 (F := Ideal) A = fun _ => loss (fun p k => A (ix2 p k)) := by
  funext i
  rw [val_main_v17_apply, total_at, val_main_cst_3_apply]
  rfl

/-- Every weakly fair execution of the reference ends with the loss of its argument in the result, the argument
    unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v17)
          = (fun _ => loss (fun p k => (m' ((c.tc : Thread Cert.ReferenceIdeal.nD Cert.ReferenceIdeal.τ).loc Cert.ReferenceIdeal.main_arg0)) (ix2 p k)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) :=
  (θ_run Cert.ReferenceIdeal.defs _ _).mono
    (fun _ h c => ⟨(h c).1.trans ((val_main_v17_eq _).trans (ref_loss _)), (h c).2⟩)
    (Cert.ReferenceIdeal.Value.run (F := Ideal) m' ρ')

end Cert.PairLoss.Ref

end
-- ==== Proof.lean ====
/-
  The certificate: a tiled pairwise cosine loss against its one-shot form.

  The input is a matrix of 4096 rows of 1024 numbers. The reference computes, for every pair of rows p < q, one minus
  their cosine similarity (the dot product over the product of the Euclidean norms, the denominator clamped below by
  the single-precision number nearest 1e-8), sums these over the strictly upper triangle of the 4096 × 4096 pair matrix
  and divides by the number of pairs, 8386560. The kernel walks the pair matrix in 512 × 512 tiles over an 8 × 8 grid,
  row by row; at a tile on or above the diagonal it forms the tile's dot products, norms, quotients and the mask of
  the pairs p < q inside the tile, sums the masked terms and adds the sum to a running total kept in a block that
  stays resident over the whole grid; the tiles strictly below the diagonal are skipped, and there the mask would have
  been zero everywhere. Read over the extended reals (every float operation exact, a change of format the identity)
  the two compute the same number: the skipped tiles contribute zero, and a sum over tiles of sums inside tiles is the
  sum over all pairs, in any order and grouping. No finiteness is needed for that: only that addition on the extended
  reals is commutative and associative and that a product with zero is zero.

  The three runs: the kernel as printed and its idealization, the same text at two instances of the floats, each
  terminate, fault nowhere and leave the input as it was — the input array is read through two windows of one pipeline,
  so its full share is dealt to them half and half and collected again —, the idealization's run moreover naming the
  result; the reference's run is the composition of its host operations. The idealization rewrote no operation, so
  there is nothing to preserve beyond the text itself.
-/
import proofs.«113013_j7284264534292_1_alg».proof.Defs
import proofs.«113013_j7284264534292_1_alg».proof.Proof.Gen.Kernel
import proofs.«113013_j7284264534292_1_alg».proof.Proof.Gen.KernelIdeal
import proofs.«113013_j7284264534292_1_alg».proof.Proof.Gen.ReferenceIdeal
import proofs.«113013_j7284264534292_1_alg».proof.Proof.Gen.Pre_finite_inputs
import proofs.«113013_j7284264534292_1_alg».proof.Proof.KRun
import proofs.«113013_j7284264534292_1_alg».proof.Proof.KIValue
import proofs.«113013_j7284264534292_1_alg».proof.Proof.RefLoss

noncomputable section

namespace Cert.Proof

open Idealize.ShloMosaic Idealize.SL.Sem

/-- The kernel as printed runs and leaves its input unchanged. -/
theorem frame_k : Cert.frame_Kernel := fun m ρ _ =>
  (θ_run Cert.Kernel.defs _ _).mono (fun _ h c => (h c).2) (Cert.Proof.K.run_main (F := Bits) m ρ)

/-- So does its idealization. -/
theorem frame_ki : Cert.frame_KernelIdeal := fun m ρ _ =>
  (θ_run Cert.KernelIdeal.defs _ _).mono (fun _ h c => (h c).2) (Cert.Proof.KI.run_main (F := Ideal) m ρ)

/-- So does the reference: its run with the result dropped. -/
theorem frame_ri : Cert.frame_ReferenceIdeal := fun m ρ _ =>
  (θ_run Cert.ReferenceIdeal.defs _ _).mono (fun _ h c => (h c).2) (Cert.PairLoss.Ref.ref_run m ρ)

/-- The idealization rewrote nothing. -/
theorem preserves : Cert.preserves_Kernel_KernelIdeal := trivial

/-- From inputs that agree, the idealized kernel and the idealized reference both end at the loss of the input. -/
theorem algebraic : Cert.algebraic_KernelIdeal_ReferenceIdeal := by
  intro m ρ m' ρ' _ hagree
  refine ⟨fun c => fun _ => Cert.PairLoss.loss (Cert.Proof.KI.xOf m c), ?_, ?_⟩
  · exact (θ_run Cert.KernelIdeal.defs _ _).mono
      (fun _ h c => ⟨(h c).1.trans (Cert.Proof.KI.outV_loss m c), (h c).2⟩) (Cert.Proof.KI.run_main (F := Ideal) m ρ)
  · refine (θ_run Cert.ReferenceIdeal.defs _ _).mono (fun _ h c => ⟨(h c).1.trans ?_, (h c).2⟩) (Cert.PairLoss.Ref.ref_run m' ρ')
    rw [hagree c]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
